-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x1024x1024 : Shape := ⟨4, ![8, 8, 1024, 1024]⟩
abbrev S8x8x1024x64 : Shape := ⟨4, ![8, 8, 1024, 64]⟩
abbrev S_ : Shape := ⟨0, ![]⟩

class Facts : Prop where
  bcast_S_S8x8x1024x1024 : S_.BroadcastsInDim S8x8x1024x1024 (![] : Fin 0 → Fin S8x8x1024x1024.rank)
  reducesTo_S8x8x1024x1024_S_d0_1_2_3 : S8x8x1024x1024.ReducesTo [0, 1, 2, 3] S_
  h_S_ : 0 < S_.numel
  bcast_S_S8x8x1024x64 : S_.BroadcastsInDim S8x8x1024x64 (![] : Fin 0 → Fin S8x8x1024x64.rank)
  reducesTo_S8x8x1024x64_S_d0_1_2_3 : S8x8x1024x64.ReducesTo [0, 1, 2, 3] S_

variable [Facts]

def fn {F : FTy → Type} [FloatOps F] (main_arg0 : FVec F S8x8x1024x1024 .f32) (main_arg1 : FVec F S8x8x1024x1024 .f32) (main_arg2 : FVec F S8x8x1024x64 .f32) : IVec S_ 1 :=
  let main_v0 : FVec F S8x8x1024x1024 .f32 := Host.absf main_arg0
  let main_cst : FVec F S_ .f32 := constant S_ .f32 0x7F800000#32
  let main_v1 : FVec F S8x8x1024x1024 .f32 := broadcastInDim S8x8x1024x1024 ![] bcast_S_S8x8x1024x1024 main_cst
  let main_v2 : IVec S8x8x1024x1024 1 := cmpf .olt main_v0 main_v1
  let main_c : IVec S_ 1 := constantI S_ 1 1#1
  let main_v3 : IVec S_ 1 := (fun x v => Host.reduce IntOp.andi x v reducesTo_S8x8x1024x1024_S_d0_1_2_3 h_S_) main_v2 main_c
  let main_v4 : FVec F S8x8x1024x1024 .f32 := Host.absf main_arg1
  let main_cst_0 : FVec F S_ .f32 := constant S_ .f32 0x7F800000#32
  let main_v5 : FVec F S8x8x1024x1024 .f32 := broadcastInDim S8x8x1024x1024 ![] bcast_S_S8x8x1024x1024 main_cst_0
  let main_v6 : IVec S8x8x1024x1024 1 := cmpf .olt main_v4 main_v5
  let main_c_1 : IVec S_ 1 := constantI S_ 1 1#1
  let main_v7 : IVec S_ 1 := (fun x v => Host.reduce IntOp.andi x v reducesTo_S8x8x1024x1024_S_d0_1_2_3 h_S_) main_v6 main_c_1
  let main_v8 : IVec S_ 1 := andi main_v3 main_v7
  let main_v9 : FVec F S8x8x1024x64 .f32 := Host.absf main_arg2
  let main_cst_2 : FVec F S_ .f32 := constant S_ .f32 0x7F800000#32
  let main_v10 : FVec F S8x8x1024x64 .f32 := broadcastInDim S8x8x1024x64 ![] bcast_S_S8x8x1024x64 main_cst_2
  let main_v11 : IVec S8x8x1024x64 1 := cmpf .olt main_v9 main_v10
  let main_c_3 : IVec S_ 1 := constantI S_ 1 1#1
  let main_v12 : IVec S_ 1 := (fun x v => Host.reduce IntOp.andi x v reducesTo_S8x8x1024x64_S_d0_1_2_3 h_S_) main_v11 main_c_3
  let main_v13 : IVec S_ 1 := andi main_v8 main_v12
  main_v13
-- ==== Kernel.lean ====
abbrev S8x8x1024x1024 : Shape := ⟨4, ![8, 8, 1024, 1024]⟩
abbrev S8x8x1024x64 : Shape := ⟨4, ![8, 8, 1024, 64]⟩
abbrev S1x1x1024x1024 : Shape := ⟨4, ![1, 1, 1024, 1024]⟩
abbrev S1x1x1024x64 : Shape := ⟨4, ![1, 1, 1024, 64]⟩
abbrev S1024x1 : Shape := ⟨2, ![1024, 1]⟩
abbrev S1x1024 : Shape := ⟨2, ![1, 1024]⟩
abbrev S1x1x128x1024 : Shape := ⟨4, ![1, 1, 128, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩
abbrev S1x1x128x64 : Shape := ⟨4, ![1, 1, 128, 64]⟩
abbrev S128x64 : Shape := ⟨2, ![128, 64]⟩
abbrev S1x128 : Shape := ⟨2, ![1, 128]⟩

abbrev nBuf : Space → Nat
  | .hbm => 4
  | .vmem => 10
  | .smem => 0
  | _ => 0

abbrev bufTy : (tb : Table) → Fin (tcTables nBuf tb) → BufTy
  | .hbm, ⟨0, _⟩ => ⟨S8x8x1024x1024, .f32⟩
  | .hbm, ⟨1, _⟩ => ⟨S8x8x1024x1024, .f32⟩
  | .hbm, ⟨2, _⟩ => ⟨S8x8x1024x64, .f32⟩
  | .hbm, ⟨3, _⟩ => ⟨S8x8x1024x64, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x64, .f32⟩
  | .local _ .vmem, ⟨7, _⟩ => ⟨S1x1x1024x64, .f32⟩
  | .local _ .vmem, ⟨8, _⟩ => ⟨S1024x1, .f32⟩
  | .local _ .vmem, ⟨9, _⟩ => ⟨S1x1024, .f32⟩
  | _, _ => ⟨S8x8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c128_i32 : BitVec 32 := 128#32
  let v4 : BitVec 32 := Scalar.muli c0_i32 c128_i32
  v4
def k0_off1 (c0_i32 : BitVec 32) : Fin 4 → Nat :=
  let c0_1 : Index := 0#32
  let c0_2 : Index := 0#32
  let c128_i32 : BitVec 32 := 128#32
  let v4 : BitVec 32 := Scalar.muli c0_i32 c128_i32
  let v5 : BitVec 32 := v4
  let v6 : Index := Scalar.indexCast v5
  let c0_3 : Index := 0#32
  ![0, 0, v6.toNat, 0]
def k0_off2 (c0_i32 : BitVec 32) : Fin 2 → Nat :=
  let c128_i32 : BitVec 32 := 128#32
  let v4 : BitVec 32 := Scalar.muli c0_i32 c128_i32
  let v5 : BitVec 32 := v4
  let v19 : Index := Scalar.indexCast v5
  let c0_8 : Index := 0#32
  ![v19.toNat, 0]
def k0_mult2 : BitVec 32 :=
  let c1_i32 : BitVec 32 := 1#32
  let c128_i32_14 : BitVec 32 := 128#32
  let v30 : BitVec 32 := Scalar.muli c1_i32 c128_i32_14
  v30
def k0_mult3 : BitVec 32 :=
  let c2_i32 : BitVec 32 := 2#32
  let c128_i32_28 : BitVec 32 := 128#32
  let v56 : BitVec 32 := Scalar.muli c2_i32 c128_i32_28
  v56
def k0_mult4 : BitVec 32 :=
  let c3_i32 : BitVec 32 := 3#32
  let c128_i32_42 : BitVec 32 := 128#32
  let v82 : BitVec 32 := Scalar.muli c3_i32 c128_i32_42
  v82
def k0_mult5 : BitVec 32 :=
  let c4_i32 : BitVec 32 := 4#32
  let c128_i32_56 : BitVec 32 := 128#32
  let v108 : BitVec 32 := Scalar.muli c4_i32 c128_i32_56
  v108
def k0_mult6 : BitVec 32 :=
  let c5_i32 : BitVec 32 := 5#32
  let c128_i32_70 : BitVec 32 := 128#32
  let v134 : BitVec 32 := Scalar.muli c5_i32 c128_i32_70
  v134
def k0_mult7 : BitVec 32 :=
  let c6_i32 : BitVec 32 := 6#32
  let c128_i32_84 : BitVec 32 := 128#32
  let v160 : BitVec 32 := Scalar.muli c6_i32 c128_i32_84
  v160
def k0_mult8 : BitVec 32 :=
  let c7_i32 : BitVec 32 := 7#32
  let c128_i32_98 : BitVec 32 := 128#32
  let v186 : BitVec 32 := Scalar.muli c7_i32 c128_i32_98
  v186
def k0_mult9 : BitVec 32 :=
  let c0_i32_112 : BitVec 32 := 0#32
  let c128_i32_113 : BitVec 32 := 128#32
  let v212 : BitVec 32 := Scalar.muli c0_i32_112 c128_i32_113
  v212
def k0_off3 (c0_i32_112 : BitVec 32) : Fin 4 → Nat :=
  let c0_117 : Index := 0#32
  let c0_118 : Index := 0#32
  let c128_i32_113 : BitVec 32 := 128#32
  let v212 : BitVec 32 := Scalar.muli c0_i32_112 c128_i32_113
  let v213 : BitVec 32 := v212
  let v217 : Index := Scalar.indexCast v213
  let c0_119 : Index := 0#32
  ![0, 0, v217.toNat, 0]
def k0_off4 (c0_i32_112 : BitVec 32) : Fin 2 → Nat :=
  let c0_125 : Index := 0#32
  let c128_i32_113 : BitVec 32 := 128#32
  let v212 : BitVec 32 := Scalar.muli c0_i32_112 c128_i32_113
  let v213 : BitVec 32 := v212
  let v232 : Index := Scalar.indexCast v213
  ![0, v232.toNat]
def k0_mult10 : BitVec 32 :=
  let c1_i32_131 : BitVec 32 := 1#32
  let c128_i32_132 : BitVec 32 := 128#32
  let v250 : BitVec 32 := Scalar.muli c1_i32_131 c128_i32_132
  v250
def k0_mult11 : BitVec 32 :=
  let c2_i32_150 : BitVec 32 := 2#32
  let c128_i32_151 : BitVec 32 := 128#32
  let v288 : BitVec 32 := Scalar.muli c2_i32_150 c128_i32_151
  v288
def k0_mult12 : BitVec 32 :=
  let c3_i32_169 : BitVec 32 := 3#32
  let c128_i32_170 : BitVec 32 := 128#32
  let v326 : BitVec 32 := Scalar.muli c3_i32_169 c128_i32_170
  v326
def k0_mult13 : BitVec 32 :=
  let c4_i32_188 : BitVec 32 := 4#32
  let c128_i32_189 : BitVec 32 := 128#32
  let v364 : BitVec 32 := Scalar.muli c4_i32_188 c128_i32_189
  v364
def k0_mult14 : BitVec 32 :=
  let c5_i32_207 : BitVec 32 := 5#32
  let c128_i32_208 : BitVec 32 := 128#32
  let v402 : BitVec 32 := Scalar.muli c5_i32_207 c128_i32_208
  v402
def k0_mult15 : BitVec 32 :=
  let c6_i32_226 : BitVec 32 := 6#32
  let c128_i32_227 : BitVec 32 := 128#32
  let v440 : BitVec 32 := Scalar.muli c6_i32_226 c128_i32_227
  v440
def k0_mult16 : BitVec 32 :=
  let c7_i32_245 : BitVec 32 := 7#32
  let c128_i32_246 : BitVec 32 := 128#32
  let v478 : BitVec 32 := Scalar.muli c7_i32_245 c128_i32_246
  v478
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S1x1x128x1024 : 0 < S1x1x128x1024.numel
  shapeCasts_S1x1x128x1024_S128x1024 : S1x1x128x1024.ShapeCasts S128x1024
  reduces_S128x1024_S128 : S128x1024.Reduces [1] S128
  shapeCasts_S128_S128x1 : S128.ShapeCasts S128x1
  h_S128x1 : 0 < S128x1.numel
  shapeCasts_S128x1_S128x1 : S128x1.ShapeCasts S128x1
  reduces_S128x1024_S1024 : S128x1024.Reduces [0] S1024
  shapeCasts_S1024_S1x1024 : S1024.ShapeCasts S1x1024
  h_S1x1x128x64 : 0 < S1x1x128x64.numel
  shapeCasts_S1x1x128x64_S128x64 : S1x1x128x64.ShapeCasts S128x64
  h_S1x128 : 0 < S1x128.numel
  transposes_S1x128_p1_0_S128x1 : S1x128.Transposes [1, 0] S128x1
  broadcasts_S128x1_S128x64 : S128x1.Broadcasts S128x64
  shapeCasts_S128x64_S1x1x128x64 : S128x64.ShapeCasts S1x1x128x64
  hrank0 : 0 < grid0.rank
  k0_mult1_dvd : 128 ∣ k0_mult1.toNat
  k0_off1_inb : ∀ (r : Fin 8), ∀ a, (k0_off1 (BitVec.ofNat 32 r.val)) a + S1x1x128x1024.size a ≤ S1x1x1024x1024.size a
  k0_off2_inb : ∀ (r : Fin 8), ∀ a, (k0_off2 (BitVec.ofNat 32 r.val)) a + S128x1.size a ≤ S1024x1.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_off3_inb : ∀ (r : Fin 8), ∀ a, (k0_off3 (BitVec.ofNat 32 r.val)) a + S1x1x128x64.size a ≤ S1x1x1024x64.size a
  k0_off4_inb : ∀ (r : Fin 8), ∀ a, (k0_off4 (BitVec.ofNat 32 r.val)) a + S1x128.size a ≤ S1x1024.size a
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S8x8x1024x1024.size a
  hwx0_0 : ∀ i : grid0.Coords, EltTy.bits .f32 = 32 ∨ (Rect.block (s := S8x8x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S8x8x1024x1024.size a
  hwx0_1 : ∀ i : grid0.Coords, EltTy.bits .f32 = 32 ∨ (Rect.block (s := S8x8x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x8x1024x64.size a
  hwx0_2 : ∀ i : grid0.Coords, EltTy.bits .f32 = 32 ∨ (Rect.block (s := S8x8x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S8x8x1024x64.size a
  hwx0_3 : ∀ i : grid0.Coords, EltTy.bits .f32 = 32 ∨ (Rect.block (s := S8x8x1024x64) S1x1x1024x64.size (cc0_transform_3 i) (hinb0_3 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x1024x1024 : Shape := ⟨4, ![8, 8, 1024, 1024]⟩
abbrev S8x8x1024x64 : Shape := ⟨4, ![8, 8, 1024, 64]⟩
abbrev S_ : Shape := ⟨0, ![]⟩
abbrev S8x8x1024 : Shape := ⟨3, ![8, 8, 1024]⟩
abbrev S8x8x1024x1 : Shape := ⟨4, ![8, 8, 1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S8x8x1024x1024, .f32⟩
  | .hbm, ⟨1, _⟩ => ⟨S8x8x1024x1024, .f32⟩
  | .hbm, ⟨2, _⟩ => ⟨S8x8x1024x64, .f32⟩
  | .hbm, ⟨3, _⟩ => ⟨S_, .f32⟩
  | .hbm, ⟨4, _⟩ => ⟨S8x8x1024x1024, .f32⟩
  | .hbm, ⟨5, _⟩ => ⟨S8x8x1024x1024, .i1⟩
  | .hbm, ⟨6, _⟩ => ⟨S_, .f32⟩
  | .hbm, ⟨7, _⟩ => ⟨S8x8x1024x1024, .f32⟩
  | .hbm, ⟨8, _⟩ => ⟨S8x8x1024x1024, .i1⟩
  | .hbm, ⟨9, _⟩ => ⟨S_, .f32⟩
  | .hbm, ⟨10, _⟩ => ⟨S_, .f32⟩
  | .hbm, ⟨11, _⟩ => ⟨S8x8x1024x1024, .f32⟩
  | .hbm, ⟨12, _⟩ => ⟨S8x8x1024x1024, .f32⟩
  | .hbm, ⟨13, _⟩ => ⟨S8x8x1024x1024, .f32⟩
  | .hbm, ⟨14, _⟩ => ⟨S_, .f32⟩
  | .hbm, ⟨15, _⟩ => ⟨S8x8x1024x1024, .f32⟩
  | .hbm, ⟨16, _⟩ => ⟨S8x8x1024x1024, .f32⟩
  | .hbm, ⟨17, _⟩ => ⟨S8x8x1024x1024, .f32⟩
  | .hbm, ⟨18, _⟩ => ⟨S_, .f32⟩
  | .hbm, ⟨19, _⟩ => ⟨S8x8x1024x1024, .f32⟩
  | .hbm, ⟨20, _⟩ => ⟨S8x8x1024x1024, .f32⟩
  | .hbm, ⟨21, _⟩ => ⟨S_, .f32⟩
  | .hbm, ⟨22, _⟩ => ⟨S8x8x1024x1024, .f32⟩
  | .hbm, ⟨23, _⟩ => ⟨S8x8x1024x1024, .i1⟩
  | .hbm, ⟨24, _⟩ => ⟨S_, .f32⟩
  | .hbm, ⟨25, _⟩ => ⟨S8x8x1024x1024, .f32⟩
  | .hbm, ⟨26, _⟩ => ⟨S8x8x1024x1024, .i1⟩
  | .hbm, ⟨27, _⟩ => ⟨S_, .f32⟩
  | .hbm, ⟨28, _⟩ => ⟨S_, .f32⟩
  | .hbm, ⟨29, _⟩ => ⟨S8x8x1024x1024, .f32⟩
  | .hbm, ⟨30, _⟩ => ⟨S8x8x1024x1024, .f32⟩
  | .hbm, ⟨31, _⟩ => ⟨S8x8x1024x1024, .f32⟩
  | .hbm, ⟨32, _⟩ => ⟨S_, .f32⟩
  | .hbm, ⟨33, _⟩ => ⟨S8x8x1024x1024, .f32⟩
  | .hbm, ⟨34, _⟩ => ⟨S8x8x1024x1024, .f32⟩
  | .hbm, ⟨35, _⟩ => ⟨S8x8x1024x1024, .f32⟩
  | .hbm, ⟨36, _⟩ => ⟨S_, .f32⟩
  | .hbm, ⟨37, _⟩ => ⟨S8x8x1024x1024, .f32⟩
  | .hbm, ⟨38, _⟩ => ⟨S8x8x1024x1024, .f32⟩
  | .hbm, ⟨39, _⟩ => ⟨S_, .f32⟩
  | .hbm, ⟨40, _⟩ => ⟨S8x8x1024, .f32⟩
  | .hbm, ⟨41, _⟩ => ⟨S8x8x1024x1, .f32⟩
  | .hbm, ⟨42, _⟩ => ⟨S8x8x1024x64, .f32⟩
  | .hbm, ⟨43, _⟩ => ⟨S8x8x1024x64, .f32⟩
  | .hbm, ⟨44, _⟩ => ⟨S_, .f32⟩
  | .hbm, ⟨45, _⟩ => ⟨S8x8x1024, .f32⟩
  | .hbm, ⟨46, _⟩ => ⟨S_, .f32⟩
  | .hbm, ⟨47, _⟩ => ⟨S8x8x1024, .f32⟩
  | .hbm, ⟨48, _⟩ => ⟨S8x8x1024, .f32⟩
  | .hbm, ⟨49, _⟩ => ⟨S_, .f32⟩
  | .hbm, ⟨50, _⟩ => ⟨S8x8x1024, .f32⟩
  | .hbm, ⟨51, _⟩ => ⟨S8x8x1024, .f32⟩
  | .hbm, ⟨52, _⟩ => ⟨S_, .f32⟩
  | .hbm, ⟨53, _⟩ => ⟨S8x8x1024, .f32⟩
  | .hbm, ⟨54, _⟩ => ⟨S8x8x1024, .f32⟩
  | .hbm, ⟨55, _⟩ => ⟨S8x8x1024x1, .f32⟩
  | .hbm, ⟨56, _⟩ => ⟨S8x8x1024x64, .f32⟩
  | .hbm, ⟨57, _⟩ => ⟨S8x8x1024x64, .f32⟩
  | .hbm, ⟨58, _⟩ => ⟨S8x8x1024x1, .f32⟩
  | .hbm, ⟨59, _⟩ => ⟨S8x8x1024x64, .f32⟩
  | .hbm, ⟨60, _⟩ => ⟨S8x8x1024x64, .f32⟩
  | _, _ => ⟨S8x8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_cst_1 : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_v4 : Ref sig .tc := ⟨.hbm, 12, rfl⟩
abbrev main_call0_v5 : Ref sig .tc := ⟨.hbm, 13, rfl⟩
abbrev main_call0_cst_2 : Ref sig .tc := ⟨.hbm, 14, rfl⟩
abbrev main_call0_v6 : Ref sig .tc := ⟨.hbm, 15, rfl⟩
abbrev main_call0_v7 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_call1_cst : Ref sig .tc := ⟨.hbm, 21, rfl⟩
abbrev main_call1_v0 : Ref sig .tc := ⟨.hbm, 22, rfl⟩
abbrev main_call1_v1 : Ref sig .tc := ⟨.hbm, 23, rfl⟩
abbrev main_call1_cst_0 : Ref sig .tc := ⟨.hbm, 24, rfl⟩
abbrev main_call1_v2 : Ref sig .tc := ⟨.hbm, 25, rfl⟩
abbrev main_call1_v3 : Ref sig .tc := ⟨.hbm, 26, rfl⟩
abbrev main_call1_cst_1 : Ref sig .tc := ⟨.hbm, 27, rfl⟩
abbrev main_call1_call0_v0 : Ref sig .tc := ⟨.hbm, 28, rfl⟩
abbrev main_call1_call0_v1 : Ref sig .tc := ⟨.hbm, 29, rfl⟩
abbrev main_call1_v4 : Ref sig .tc := ⟨.hbm, 30, rfl⟩
abbrev main_call1_v5 : Ref sig .tc := ⟨.hbm, 31, rfl⟩
abbrev main_call1_cst_2 : Ref sig .tc := ⟨.hbm, 32, rfl⟩
abbrev main_call1_v6 : Ref sig .tc := ⟨.hbm, 33, rfl⟩
abbrev main_call1_v7 : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_v5 : Ref sig .tc := ⟨.hbm, 38, rfl⟩
abbrev main_cst_1 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_cst_3 : Ref sig .tc := ⟨.hbm, 46, rfl⟩
abbrev main_v11 : Ref sig .tc := ⟨.hbm, 47, rfl⟩
abbrev main_v12 : Ref sig .tc := ⟨.hbm, 48, rfl⟩
abbrev main_cst_4 : Ref sig .tc := ⟨.hbm, 49, rfl⟩
abbrev main_v13 : Ref sig .tc := ⟨.hbm, 50, rfl⟩
abbrev main_v14 : Ref sig .tc := ⟨.hbm, 51, rfl⟩
abbrev main_cst_5 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩

abbrev nD : Nat := 1
abbrev τ : Topo := Topo.v7x

variable {F : FTy → Type} [FloatOps F]

class Facts₀ : Prop where
  bcast_S_S8x8x1024x1024 : S_.BroadcastsInDim S8x8x1024x1024 (![] : Fin 0 → Fin S8x8x1024x1024.rank)
  reducesTo_S8x8x1024x1024_S8x8x1024_d3 : S8x8x1024x1024.ReducesTo [3] S8x8x1024
  h_S_ : 0 < S_.numel
  bcast_S8x8x1024_S8x8x1024x1_0_1_2 : S8x8x1024.BroadcastsInDim S8x8x1024x1 (![0, 1, 2] : Fin 3 → Fin S8x8x1024x1.rank)
  bcast_S8x8x1024x1_S8x8x1024x64_0_1_2_3 : S8x8x1024x1.BroadcastsInDim S8x8x1024x64 (![0, 1, 2, 3] : Fin 4 → Fin S8x8x1024x64.rank)
  reducesTo_S8x8x1024x1024_S8x8x1024_d2 : S8x8x1024x1024.ReducesTo [2] S8x8x1024
  bcast_S_S8x8x1024 : S_.BroadcastsInDim S8x8x1024 (![] : Fin 0 → Fin S8x8x1024.rank)

variable [Facts₀]

class Facts : Prop extends Facts₀ where

variable [Facts]
-- ==== Proof.KPieces.lean ====
/-
  The pieces the kernel body leaves, in one regular form.

  The body works on the [1024, ·] blocks of Q, K and V of one (batch, head) pair in eight chunks of 128 rows, twice:
  a first pass over K stores, per chunk, the 128 row sums of φ(K) into a [1024, 1] scratch column and adds the chunk's
  1024 column sums of φ(K) into a [1, 1024] scratch row that starts at zero; a second pass over Q and V stores, per
  chunk, 128 rows of the result. The run's witness names these stores through payload functions that differ from
  chunk to chunk only in how the straight-line text was cut; here every chunk's store is restated through the first
  chunk's payload function, applied to that chunk's loads.
-/
import proofs.«133528_j36498632082002_2_alg».proof.Proof.Gen.KernelIdeal.Frame
import Idealize.ShloMosaic.PureOps.Ideal
import Idealize.ShloMosaic.Lib.Pipeline.Value

set_option maxRecDepth 16384

noncomputable section

namespace Cert.KernelIdeal.KV

open Cert.KernelIdeal Cert.KernelIdeal.Gen Idealize.ShloMosaic Idealize.ShloMosaic.TcCoe

variable (c : Dev nD) (i : grid0.Coords)
  (arg2 : Memref sig .tc .vmem S1x1x1024x1024 .f32) (harg2 : arg2.IsWhole)
  (arg3 : Memref sig .tc .vmem S1x1x1024x1024 .f32) (harg3 : arg3.IsWhole)
  (arg4 : Memref sig .tc .vmem S1x1x1024x64 .f32) (harg4 : arg4.IsWhole)
  (arg5 : Memref sig .tc .vmem S1x1x1024x64 .f32) (harg5 : arg5.IsWhole)
  (arg6 : Memref sig .tc .vmem S1024x1 .f32) (harg6 : arg6.IsWhole)
  (arg7 : Memref sig .tc .vmem S1x1024 .f32) (harg7 : arg7.IsWhole)
  (x0 x1 : Vec Ideal S1x1x1024x1024 .f32) (x2 : Vec Ideal S1x1x1024x64 .f32)

/-- Chunk a of a [1, 1, 1024, n] block lies inside it. -/
theorem inb4 (n : ℕ) (a : ℕ) (ha : a < 8) :
    ∀ b : Fin 4, (![0, 0, 128 * a, 0] : Fin 4 → ℕ) b + (![1, 1, 128, n] : Fin 4 → ℕ) b ≤ (![1, 1, 1024, n] : Fin 4 → ℕ) b := by
  intro b
  match b with
  | ⟨0, _⟩ => exact Nat.le_refl _
  | ⟨1, _⟩ => exact Nat.le_refl _
  | ⟨2, _⟩ => show 128 * a + 128 ≤ 1024; omega
  | ⟨3, _⟩ => show 0 + n ≤ n; omega

/-- Rows 128a … 128a + 127 of a staged [1, 1, 1024, 1024] block, as the body loads them. -/
def ld1024 (M : Memref sig .tc .vmem S1x1x1024x1024 .f32) (hM : M.IsWhole) (x : Vec Ideal S1x1x1024x1024 .f32) (a : ℕ) (ha : a < 8) :
    Vec Ideal S1x1x128x1024 .f32 :=
  View.readAt (Elt Ideal) M.view (Rect.unit (s := S1x1x1024x1024) ![0, 0, 128 * a, 0] S1x1x128x1024.size (inb4 1024 a ha)).toLoadRect (hM.unread x)

/-- Rows 128a … 128a + 127 of the staged V block, as the body loads them. -/
def ld64 (M : Memref sig .tc .vmem S1x1x1024x64 .f32) (hM : M.IsWhole) (x : Vec Ideal S1x1x1024x64 .f32) (a : ℕ) (ha : a < 8) :
    Vec Ideal S1x1x128x64 .f32 :=
  View.readAt (Elt Ideal) M.view (Rect.unit (s := S1x1x1024x64) ![0, 0, 128 * a, 0] S1x1x128x64.size (inb4 64 a ha)).toLoadRect (hM.unread x)

/-- Chunk a of the [1024, 1] scratch column lies inside it. -/
theorem inbCol (a : ℕ) (ha : a < 8) :
    ∀ b : Fin 2, (![128 * a, 0] : Fin 2 → ℕ) b + (![128, 1] : Fin 2 → ℕ) b ≤ (![1024, 1] : Fin 2 → ℕ) b := by
  intro b
  match b with
  | ⟨0, _⟩ => show 128 * a + 128 ≤ 1024; omega
  | ⟨1, _⟩ => exact Nat.le_refl _

/-- Lanes 128a … 128a + 127 of the [1, 1024] scratch row lie inside it. -/
theorem inbRow (a : ℕ) (ha : a < 8) :
    ∀ b : Fin 2, (![0, 128 * a] : Fin 2 → ℕ) b + (![1, 128] : Fin 2 → ℕ) b ≤ (![1, 1024] : Fin 2 → ℕ) b := by
  intro b
  match b with
  | ⟨0, _⟩ => exact Nat.le_refl _
  | ⟨1, _⟩ => show 128 * a + 128 ≤ 1024; omega

/-! ## The scratch column: eight stores of row sums -/

/-- The first pass's store of chunk a into the scratch column: the row sums of φ of K's chunk. -/
def colPiece (a : ℕ) (ha : a < 8) : View.Piece (Elt Ideal) S1024x1 .f32 :=
  ⟨Rect.unit (s := S1024x1) ![128 * a, 0] S128x1.size (inbCol a ha), k0_pay4 (ld1024 arg3 harg3 x1 a ha)⟩

/-- The scratch column's stores, last first, in that form. -/
theorem col_pieces :
    kernelRun0_A.sl.HS0_8 (F := Ideal) c arg3 harg3 x1
      = [colPiece arg3 harg3 x1 7 (by omega), colPiece arg3 harg3 x1 6 (by omega), colPiece arg3 harg3 x1 5 (by omega),
         colPiece arg3 harg3 x1 4 (by omega), colPiece arg3 harg3 x1 3 (by omega), colPiece arg3 harg3 x1 2 (by omega),
         colPiece arg3 harg3 x1 1 (by omega), colPiece arg3 harg3 x1 0 (by omega)] := rfl

/-! ## The scratch row: a zero fill, then eight additions of column sums -/

/-- The scratch row after the zero fill. -/
def acc0 : FVec Ideal S1x1024 .f32 := k0_pay2 (F := Ideal)

/-- The scratch row after the zero fill and the column sums of chunks 0 … 0. -/
def acc1 : FVec Ideal S1x1024 .f32 := k0_pay5 (ld1024 arg3 harg3 x1 0 (by omega)) (acc0)

/-- The scratch row after the zero fill and the column sums of chunks 0 … 1. -/
def acc2 : FVec Ideal S1x1024 .f32 := k0_pay5 (ld1024 arg3 harg3 x1 1 (by omega)) (acc1 arg3 harg3 x1)

/-- The scratch row after the zero fill and the column sums of chunks 0 … 2. -/
def acc3 : FVec Ideal S1x1024 .f32 := k0_pay5 (ld1024 arg3 harg3 x1 2 (by omega)) (acc2 arg3 harg3 x1)

/-- The scratch row after the zero fill and the column sums of chunks 0 … 3. -/
def acc4 : FVec Ideal S1x1024 .f32 := k0_pay5 (ld1024 arg3 harg3 x1 3 (by omega)) (acc3 arg3 harg3 x1)

/-- The scratch row after the zero fill and the column sums of chunks 0 … 4. -/
def acc5 : FVec Ideal S1x1024 .f32 := k0_pay5 (ld1024 arg3 harg3 x1 4 (by omega)) (acc4 arg3 harg3 x1)

/-- The scratch row after the zero fill and the column sums of chunks 0 … 5. -/
def acc6 : FVec Ideal S1x1024 .f32 := k0_pay5 (ld1024 arg3 harg3 x1 5 (by omega)) (acc5 arg3 harg3 x1)

/-- The scratch row after the zero fill and the column sums of chunks 0 … 6. -/
def acc7 : FVec Ideal S1x1024 .f32 := k0_pay5 (ld1024 arg3 harg3 x1 6 (by omega)) (acc6 arg3 harg3 x1)

/-- The scratch row after the zero fill and the column sums of chunks 0 … 7. -/
def acc8 : FVec Ideal S1x1024 .f32 := k0_pay5 (ld1024 arg3 harg3 x1 7 (by omega)) (acc7 arg3 harg3 x1)

/-- The offsets of a whole-buffer access of a rank-2 buffer are zero. -/
theorem zero2 : (![0, 0] : Fin 2 → ℕ) = fun _ => 0 :=
  funext fun b => match b with | ⟨0, _⟩ => rfl | ⟨1, _⟩ => rfl

/-- One addition: the row is loaded whole, the chunk's column sums are added, the row is stored whole; what the
    stores leave afterwards is that payload of what they left before. -/
theorem step_canon (L : List (View.Piece (Elt Ideal) S1x1024 .f32)) (A : FVec Ideal S1x1024 .f32) (hL : View.canon L = A)
    (kc : Vec Ideal S1x1x128x1024 .f32) :
    View.canon ((⟨Rect.unit (s := S1x1024) ![0, 0] S1x1024.size inb_S1x1024_S1x1024_0_0,
        k0_pay5 kc (arg7.view.readCov L (Rect.unit (s := S1x1024) ![0, 0] S1x1024.size inb_S1x1024_S1x1024_0_0).toLoadRect)⟩
          : View.Piece (Elt Ideal) S1x1024 .f32) :: L) = k0_pay5 kc A := by
  rw [View.canon_cons_unit_zero zero2, View.readCov_eq_canon', hL]
  have h := View.ld_unit_zero (Val := Elt Ideal) (S := S1x1024) (e := .f32) zero2 inb_S1x1024_S1x1024_0_0 A
  exact congrArg (k0_pay5 kc) h

theorem row_canon1 : View.canon (kernelRun0_A.sl.HS1_1 (F := Ideal)) = acc0 :=
  View.canon_unit_zero zero2 inb_S1x1024_S1x1024_0_0 _

theorem row_canon2 : View.canon (kernelRun0_A.sl.HS1_2 (F := Ideal) c arg3 harg3 arg7 x1) = acc1 arg3 harg3 x1 :=
  step_canon arg7 (kernelRun0_A.sl.HS1_1 (F := Ideal)) acc0 row_canon1 (ld1024 arg3 harg3 x1 0 (by omega))

theorem row_canon3 : View.canon (kernelRun0_A.sl.HS1_3 (F := Ideal) c arg3 harg3 arg7 x1) = acc2 arg3 harg3 x1 :=
  step_canon arg7 (kernelRun0_A.sl.HS1_2 (F := Ideal) c arg3 harg3 arg7 x1) (acc1 arg3 harg3 x1) (row_canon2 c arg3 harg3 arg7 x1) (ld1024 arg3 harg3 x1 1 (by omega))

theorem row_canon4 : View.canon (kernelRun0_A.sl.HS1_4 (F := Ideal) c arg3 harg3 arg7 x1) = acc3 arg3 harg3 x1 :=
  step_canon arg7 (kernelRun0_A.sl.HS1_3 (F := Ideal) c arg3 harg3 arg7 x1) (acc2 arg3 harg3 x1) (row_canon3 c arg3 harg3 arg7 x1) (ld1024 arg3 harg3 x1 2 (by omega))

theorem row_canon5 : View.canon (kernelRun0_A.sl.HS1_5 (F := Ideal) c arg3 harg3 arg7 x1) = acc4 arg3 harg3 x1 :=
  step_canon arg7 (kernelRun0_A.sl.HS1_4 (F := Ideal) c arg3 harg3 arg7 x1) (acc3 arg3 harg3 x1) (row_canon4 c arg3 harg3 arg7 x1) (ld1024 arg3 harg3 x1 3 (by omega))

theorem row_canon6 : View.canon (kernelRun0_A.sl.HS1_6 (F := Ideal) c arg3 harg3 arg7 x1) = acc5 arg3 harg3 x1 :=
  step_canon arg7 (kernelRun0_A.sl.HS1_5 (F := Ideal) c arg3 harg3 arg7 x1) (acc4 arg3 harg3 x1) (row_canon5 c arg3 harg3 arg7 x1) (ld1024 arg3 harg3 x1 4 (by omega))

theorem row_canon7 : View.canon (kernelRun0_A.sl.HS1_7 (F := Ideal) c arg3 harg3 arg7 x1) = acc6 arg3 harg3 x1 :=
  step_canon arg7 (kernelRun0_A.sl.HS1_6 (F := Ideal) c arg3 harg3 arg7 x1) (acc5 arg3 harg3 x1) (row_canon6 c arg3 harg3 arg7 x1) (ld1024 arg3 harg3 x1 5 (by omega))

theorem row_canon8 : View.canon (kernelRun0_A.sl.HS1_8 (F := Ideal) c arg3 harg3 arg7 x1) = acc7 arg3 harg3 x1 :=
  step_canon arg7 (kernelRun0_A.sl.HS1_7 (F := Ideal) c arg3 harg3 arg7 x1) (acc6 arg3 harg3 x1) (row_canon7 c arg3 harg3 arg7 x1) (ld1024 arg3 harg3 x1 6 (by omega))

theorem row_canon9 : View.canon (kernelRun0_A.sl.HS1_9 (F := Ideal) c arg3 harg3 arg7 x1) = acc8 arg3 harg3 x1 :=
  step_canon arg7 (kernelRun0_A.sl.HS1_8 (F := Ideal) c arg3 harg3 arg7 x1) (acc7 arg3 harg3 x1) (row_canon8 c arg3 harg3 arg7 x1) (ld1024 arg3 harg3 x1 7 (by omega))

end Cert.KernelIdeal.KV

end
-- ==== Proof.KLoads.lean ====
/-
  A chunk's loads read at an index: rows 128a … 128a + 127 of a staged block are the block's rows, 128a further down.
-/
import proofs.«133528_j36498632082002_2_alg».proof.Proof.KPieces
import Idealize.ShloMosaic.Lib.ValueIdx
import Idealize.ShloMosaic.Lib.Tactic

set_option maxRecDepth 16384

noncomputable section

namespace Cert.KernelIdeal.KV

open Cert.KernelIdeal Cert.KernelIdeal.Gen Idealize.ShloMosaic Idealize.ShloMosaic.TcCoe Idealize.ShloMosaic.ValueIdx Idealize.ShloMosaic.Tactic

/-- A chunk's load of a [1, 1, 1024, 1024] block reads the block 128a rows further down. -/
theorem ld1024_apply (M : Memref sig .tc .vmem S1x1x1024x1024 .f32) (hM : M.IsWhole) (x : Vec Ideal S1x1x1024x1024 .f32)
    (a : ℕ) (ha : a < 8) (u u' : Fin 1) (r : Fin 128) (j : Fin 1024) :
    ld1024 M hM x a ha (ix4 u u' r j) = x (ix4 (0 : Fin 1) (0 : Fin 1) (⟨128 * a + r.val, by omega⟩ : Fin 1024) j) := by
  unfold ld1024
  rw [View.readAt_eq_ld, hM.read_unread]
  show x ((Rect.unit (s := S1x1x1024x1024) ![0, 0, 128 * a, 0] S1x1x128x1024.size (inb4 1024 a ha)).idx (ix4 u u' r j)) = _
  refine congrArg x (funext fun b => Fin.ext ?_)
  have hu := u.isLt
  have hu' := u'.isLt
  match b with
  | ⟨0, _⟩ => show 0 + 1 * u.val = 0; omega
  | ⟨1, _⟩ => show 0 + 1 * u'.val = 0; omega
  | ⟨2, _⟩ => show 128 * a + 1 * r.val = 128 * a + r.val; omega
  | ⟨3, _⟩ => show 0 + 1 * j.val = j.val; omega

/-- A chunk's load of the [1, 1, 1024, 64] block reads the block 128a rows further down. -/
theorem ld64_apply (M : Memref sig .tc .vmem S1x1x1024x64 .f32) (hM : M.IsWhole) (x : Vec Ideal S1x1x1024x64 .f32)
    (a : ℕ) (ha : a < 8) (u u' : Fin 1) (r : Fin 128) (d : Fin 64) :
    ld64 M hM x a ha (ix4 u u' r d) = x (ix4 (0 : Fin 1) (0 : Fin 1) (⟨128 * a + r.val, by omega⟩ : Fin 1024) d) := by
  unfold ld64
  rw [View.readAt_eq_ld, hM.read_unread]
  show x ((Rect.unit (s := S1x1x1024x64) ![0, 0, 128 * a, 0] S1x1x128x64.size (inb4 64 a ha)).idx (ix4 u u' r d)) = _
  refine congrArg x (funext fun b => Fin.ext ?_)
  have hu := u.isLt
  have hu' := u'.isLt
  match b with
  | ⟨0, _⟩ => show 0 + 1 * u.val = 0; omega
  | ⟨1, _⟩ => show 0 + 1 * u'.val = 0; omega
  | ⟨2, _⟩ => show 128 * a + 1 * r.val = 128 * a + r.val; omega
  | ⟨3, _⟩ => show 0 + 1 * d.val = d.val; omega

/-- The scratch column's stores tile it. -/
theorem col_cover (c : Dev nD) (arg3 : Memref sig .tc .vmem S1x1x1024x1024 .f32) (harg3 : arg3.IsWhole) (x1 : Vec Ideal S1x1x1024x1024 .f32)
    (y : S1024x1.Idx) : ∃ pc ∈ kernelRun0_A.sl.HS0_8 (F := Ideal) c arg3 harg3 x1, y ∈ pc.1.set :=
  View.cover_of_tiledL (kernelRun0_A.sl.HS0_8 (F := Ideal) c arg3 harg3 x1) S128x1.size (by sl_kernel_rfl) y

end Cert.KernelIdeal.KV
end
-- ==== Proof.Spec.lean ====
/-
  The linear-attention result as ONE function of the three argument arrays Q, K : [8, 8, 1024, 1024] and
  V : [8, 8, 1024, 64], over the extended reals.

  With φ(x) = elu(x) + 1, that is x + 1 for x > 0 and eˣ otherwise, and for a batch b, a head h and a row l:
    rowSum A b h l = ∑ j, φ (A[b, h, l, j])      (a row of φ(A) summed along its last axis)
    colSum A b h l = ∑ j, φ (A[b, h, j, l])      (column l of φ(A) summed along the row axis: the two long axes have
                                                  the same extent, so a column sum can be indexed by a row)
  the result at [b, h, l, d] is
    rowSum Q b h l · (rowSum K b h l · V[b, h, l, d]) · (1 / (rowSum Q b h l · colSum K b h l + ε)),
  ε the f32 nearest 1e-6, kept as its binary word: both programs carry the same word.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of Q and of K. -/
abbrev SQ : Shape := ⟨4, ![8, 8, 1024, 1024]⟩
/-- The shape of V and of the result. -/
abbrev SV : Shape := ⟨4, ![8, 8, 1024, 64]⟩

/-- φ(x) = elu(x) + 1: x + 1 on the positive side, eˣ elsewhere. -/
def phi (x : EReal) : EReal := if 0 < x then x + 1 else Ideal.exp x

/-- ε: the f32 nearest 1e-6, as its word. -/
def eps : EReal := Ideal.ofBits .f32 0x358637BD#32

/-- Row l of φ(A[b, h]) summed along the last axis. -/
def rowSum (a : FVec Ideal SQ .f32) (b h : Fin 8) (l : Fin 1024) : EReal :=
  ∑ j : Fin 1024, phi (a (ix4 b h l j))

/-- Column l of φ(A[b, h]) summed along the row axis. -/
def colSum (a : FVec Ideal SQ .f32) (b h : Fin 8) (l : Fin 1024) : EReal :=
  ∑ j : Fin 1024, phi (a (ix4 b h j l))

/-- The result at [b, h, l, d]. -/
def outAt (q k : FVec Ideal SQ .f32) (v : FVec Ideal SV .f32) (b h : Fin 8) (l : Fin 1024) (d : Fin 64) : EReal :=
  rowSum q b h l * (rowSum k b h l * v (ix4 b h l d)) * Ideal.div 1 (rowSum q b h l * colSum k b h l + eps)

/-- The whole result array. -/
def G (q k : FVec Ideal SQ .f32) (v : FVec Ideal SV .f32) : FVec Ideal SV .f32 :=
  fun i => outAt q k v (i 0) (i 1) (i 2) (i 3)

theorem G_ix4 (q k : FVec Ideal SQ .f32) (v : FVec Ideal SV .f32) (b h : Fin 8) (l : Fin 1024) (d : Fin 64) :
    G q k v (ix4 b h l d) = outAt q k v b h l d := rfl

/-- The shape of the Q or K block of one (batch, head) pair. -/
abbrev SQb : Shape := ⟨4, ![1, 1, 1024, 1024]⟩
/-- The shape of the V block, and of the result block, of one (batch, head) pair. -/
abbrev SVb : Shape := ⟨4, ![1, 1, 1024, 64]⟩

/-- The result block of one (batch, head) pair at [l, d], from that pair's blocks of Q, K and V: the same
    expression as `outAt`, over the blocks. -/
def blockOut (x0 x1 : FVec Ideal SQb .f32) (x2 : FVec Ideal SVb .f32) (l : Fin 1024) (d : Fin 64) : EReal :=
  (∑ j : Fin 1024, phi (x0 (ix4 (0 : Fin 1) (0 : Fin 1) l j)))
    * ((∑ j : Fin 1024, phi (x1 (ix4 (0 : Fin 1) (0 : Fin 1) l j))) * x2 (ix4 (0 : Fin 1) (0 : Fin 1) l d))
    * Ideal.div 1 ((∑ j : Fin 1024, phi (x0 (ix4 (0 : Fin 1) (0 : Fin 1) l j)))
        * (∑ j : Fin 1024, phi (x1 (ix4 (0 : Fin 1) (0 : Fin 1) j l))) + eps)

/-- The f32 word of 1.0 is the real 1. -/
theorem ofBits_one_f32 : Ideal.ofBits .f32 0x3F800000#32 = 1 := by
  simp [Ideal.ofBits, Ideal.ieee]
  rw [← EReal.coe_mul, ← EReal.coe_one]
  congr 1
  norm_num

/-- For a real x, (eˣ − 1) + 1 = eˣ on the extended reals: the exponential of a real is a real. -/
theorem expm1_add_one (r : ℝ) : Ideal.exp (r : EReal) - 1 + 1 = Ideal.exp (r : EReal) := by
  show ((Real.exp r : ℝ) : EReal) - 1 + 1 = ((Real.exp r : ℝ) : EReal)
  rw [← EReal.coe_one, ← EReal.coe_sub, ← EReal.coe_add]
  congr 1
  ring

end Cert.Spec

end
-- ==== Proof.KLayout.lean ====
import Idealize.ShloMosaic.Lib.Pipeline.Value
import Idealize.ShloMosaic.Lib.ValueIdx
import Idealize.ShloMosaic.Lib.ValueLayout
import Idealize.ShloMosaic.PureOps.Ideal.Laws

/-!
Layout operations and one-axis sums of a matrix read at an index written by coordinates, over generic
extents `a b : ℕ`:
* two leading unit axes dropped from, or added to, a matrix by a shape cast;
* a trailing unit axis added to a vector by a shape cast;
* a column `[a, 1]` broadcast over `b` columns;
* the sum of a matrix along its rows' entries (axis 1) and along its columns' entries (axis 0).
A shape cast keeps the row-major position: with unit extents the position of `(0, 0, i, j)` in
`[1, 1, a, b]` is `((0 * 1 + 0) * a + i) * b + j = i * b + j`, the position of `(i, j)` in `[a, b]`.
-/

namespace Cert.KLayout

open Idealize.ShloMosaic Idealize.ShloMosaic.ValueIdx

variable {α : Type}

/-- A `[1, 1, a, b]` array cast to `[a, b]` reads, at `(i, j)`, the operand at `(0, 0, i, j)`. -/
theorem cast_11ab_ab_apply {a b : ℕ} (x : (⟨4, ![1, 1, a, b]⟩ : Shape).Idx → α) (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the unit
coordinates. -/
theorem cast_ab_11ab_apply {a b : ℕ} (y : (⟨2, ![a, b]⟩ : Shape).Idx → α) (h : (⟨2, ![a, b]⟩ : Shape).ShapeCasts ⟨4, ![1, 1, a, b]⟩) (u u' : Fin 1) (i : Fin a) (j : Fin b) :
    shapeCast ⟨4, ![1, 1, a, b]⟩ y h (ix4 u u' i j) = y (ix2 i j) :=
  shapeCast_apply y h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- An `[a]` array cast to `[a, 1]` reads, at `(i, u)`, the operand at `i`, whatever the unit coordinate `u`. -/
theorem cast_a_a1_apply {a : ℕ} (z : (⟨1, ![a]⟩ : Shape).Idx → α) (h : (⟨1, ![a]⟩ : Shape).ShapeCasts ⟨2, ![a, 1]⟩) (i : Fin a) (u : Fin 1) :
    shapeCast ⟨2, ![a, 1]⟩ z h (ix2 i u) = z (ix1 i) :=
  shapeCast_apply z h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one column at row `i`. -/
theorem bcast_a1_ab_apply {a b : ℕ} (w : (⟨2, ![a, 1]⟩ : Shape).Idx → α) (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ =>
    exact (if_pos rfl).symm

/-- The sum of an `[a, b]` matrix over axis 1, read at row `i`: the sum of that row's `b` entries. -/
theorem rowsum_apply {a b : ℕ} (src : FVec Ideal ⟨2, ![a, b]⟩ .f32) (h : (⟨2, ![a, b]⟩ : Shape).Reduces [1] ⟨1, ![a]⟩) (hφ : FKind.Formats .f32) (hacc : (0x00000000#32 : BitVec FTy.f32.bits) = FKind.add.neutral .f32 hφ) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  refine Finset.sum_congr rfl fun k _ => congrArg src (funext fun c => Fin.ext ?_)
  rw [h.lift_val]
  match c with
  | ⟨0, _⟩ => rfl
  | ⟨1, _⟩ => rfl

/-- The sum of an `[a, b]` matrix over axis 0, read at column `j`: the sum of that column's `a` entries. -/
theorem colsum_apply {a b : ℕ} (src : FVec Ideal ⟨2, ![a, b]⟩ .f32) (h : (⟨2, ![a, b]⟩ : Shape).Reduces [0] ⟨1, ![b]⟩) (hφ : FKind.Formats .f32) (hacc : (0x00000000#32 : BitVec FTy.f32.bits) = FKind.add.neutral .f32 hφ) (j : Fin b) :
    multiReduction .add [0] ⟨1, ![b]⟩ src 0x00000000#32 h hφ hacc (ix1 j) = ∑ k : Fin a, src (ix2 k j) := by
  refine (Ideal.multiReduction_add_single src _ h hφ hacc (ix1 j)).trans ?_
  refine Finset.sum_congr rfl fun k _ => congrArg src (funext fun c => Fin.ext ?_)
  rw [h.lift_val]
  match c with
  | ⟨0, _⟩ => rfl
  | ⟨1, _⟩ => rfl

/-- The two sums at the extents `128 × 1024`, with the format and accumulator facts given as a printed
`vector.multi_reduction` gives them. -/
example (v : FVec Ideal ⟨2, ![128, 1024]⟩ .f32) (h : (⟨2, ![128, 1024]⟩ : Shape).Reduces [1] ⟨1, ![128]⟩) (i : Fin 128) :
    multiReduction .add [1] ⟨1, ![128]⟩ v 0x00000000#32 h (.inl rfl) rfl (ix1 i) = ∑ k : Fin 1024, v (ix2 i k) :=
  rowsum_apply v h _ _ i

example (v : FVec Ideal ⟨2, ![128, 1024]⟩ .f32) (h : (⟨2, ![128, 1024]⟩ : Shape).Reduces [0] ⟨1, ![1024]⟩) (j : Fin 1024) :
    multiReduction .add [0] ⟨1, ![1024]⟩ v 0x00000000#32 h (.inl rfl) rfl (ix1 j) = ∑ k : Fin 128, v (ix2 k j) :=
  colsum_apply v h _ _ j

end Cert.KLayout
-- ==== Proof.KPayApply.lean ====
/-
  The kernel's payload functions read at an index, at the ideal values.

  φ(x) = x + 1 for x > 0 and eˣ otherwise; the kernel spells it as a select on x > 0 between x + 1 and exp (min x 0),
  which is φ(x) for every extended real x (off the positive side min x 0 = x). A block [1, 1, 128, n] is cast to the
  matrix [128, n] entry by entry; a sum along a matrix's rows or columns is the plain sum of that row's or column's
  entries; a column [128, 1] broadcast over 64 columns reads its row's entry; a row [1, 128] transposed to a column
  reads the row's entry.
-/
import proofs.«133528_j36498632082002_2_alg».proof.Proof.Gen.KernelIdeal.Skeleton
import proofs.«133528_j36498632082002_2_alg».proof.Proof.Spec
import proofs.«133528_j36498632082002_2_alg».proof.Proof.KLayout

noncomputable section

namespace Cert.KernelIdeal.KVal

open Cert.KernelIdeal Cert.KernelIdeal.Gen Idealize.ShloMosaic Idealize.ShloMosaic.ValueIdx

/-- The kernel's spelling of φ at one value: for every extended real x it is φ(x). -/
theorem phi_scalar (x : EReal) :
    Scalar.select (Ideal.cmp .ogt x (Ideal.ofBits .f32 0x00000000#32)) (x + Ideal.ofBits .f32 0x3F800000#32)
        (Ideal.exp (min x (Ideal.ofBits .f32 0x00000000#32))) = Cert.Spec.phi x := by
  rw [Ideal.ofBits_zero_f32, Cert.Spec.ofBits_one_f32]
  unfold Cert.Spec.phi
  by_cases hx : (0 : EReal) < x
  · have hc : Ideal.cmp .ogt x 0 = 1#1 := by simp [Ideal.cmp, hx]
    rw [hc, select_one, if_pos hx]
  · have hc : Ideal.cmp .ogt x 0 = 0#1 := by simp [Ideal.cmp, hx]
    rw [hc, select_zero, if_neg hx, min_eq_left (not_lt.mp hx)]

/-- φ of a block, entry by entry. -/
theorem pay3_apply (kc : Vec Ideal S1x1x128x1024 .f32) (r : Fin 128) (j : Fin 1024) :
    k0_pay3 kc (ix2 r j) = Cert.Spec.phi (kc (ix4 (0 : Fin 1) (0 : Fin 1) r j)) := by
  have h8 : shapeCast S128x1024 kc shapeCasts_S1x1x128x1024_S128x1024 (ix2 r j)
      = kc (ix4 (0 : Fin 1) (0 : Fin 1) r j) := Cert.KLayout.cast_11ab_ab_apply kc _ r j
  show Scalar.select
      (Ideal.cmp .ogt (shapeCast S128x1024 kc shapeCasts_S1x1x128x1024_S128x1024 (ix2 r j)) (Ideal.ofBits .f32 0x00000000#32))
      (shapeCast S128x1024 kc shapeCasts_S1x1x128x1024_S128x1024 (ix2 r j) + Ideal.ofBits .f32 0x3F800000#32)
      (Ideal.exp (min (shapeCast S128x1024 kc shapeCasts_S1x1x128x1024_S128x1024 (ix2 r j)) (Ideal.ofBits .f32 0x00000000#32))) = _
  rw [h8]
  exact phi_scalar _

/-- The row sums of φ of a block, as a column. -/
theorem pay4_apply (kc : Vec Ideal S1x1x128x1024 .f32) (r : Fin 128) (u : Fin 1) :
    k0_pay4 kc (ix2 r u) = ∑ j : Fin 1024, Cert.Spec.phi (kc (ix4 (0 : Fin 1) (0 : Fin 1) r j)) := by
  unfold k0_pay4
  dsimp only []
  rw [shapeCast_self]
  refine (Cert.KLayout.cast_a_a1_apply _ _ r u).trans ?_
  refine (Cert.KLayout.rowsum_apply _ _ _ _ r).trans ?_
  exact Finset.sum_congr rfl fun j _ => pay3_apply kc r j

/-- The initial column sums: zero. -/
theorem pay2_apply (u : Fin 1) (k : Fin 1024) : k0_pay2 (F := Ideal) (ix2 u k) = 0 :=
  Ideal.ofBits_zero_f32

/-- The running column sums: the previous ones plus the column sums of φ of a block. -/
theorem pay5_apply (kc : Vec Ideal S1x1x128x1024 .f32) (prev : Vec Ideal S1x1024 .f32) (u : Fin 1) (k : Fin 1024) :
    k0_pay5 kc prev (ix2 u k)
      = prev (ix2 u k) + ∑ r : Fin 128, Cert.Spec.phi (kc (ix4 (0 : Fin 1) (0 : Fin 1) r k)) := by
  unfold k0_pay5
  dsimp only []
  rw [shapeCast_self]
  refine (addf_apply _ _ _).trans ?_
  refine congrArg (prev (ix2 u k) + ·) ?_
  refine (shapeCast_a_1a_apply _ _ u k).trans ?_
  refine (Cert.KLayout.colsum_apply _ _ _ _ k).trans ?_
  exact Finset.sum_congr rfl fun r _ => pay3_apply kc r k

/-- The row sums of φ of a block, as a column [128, 1] (before any store reshapes it). -/
def rowCol (qc : Vec Ideal S1x1x128x1024 .f32) : FVec Ideal S128x1 .f32 :=
  shapeCast S128x1
    (multiReduction .add [1] S128 (k0_pay3 qc) 0x00000000#32 reduces_S128x1024_S128 (.inl rfl) rfl)
    shapeCasts_S128_S128x1

/-- That column at row r: the plain sum of row r of φ of the block. -/
theorem rowCol_apply (qc : Vec Ideal S1x1x128x1024 .f32) (r : Fin 128) (u : Fin 1) :
    rowCol qc (ix2 r u) = ∑ j : Fin 1024, Cert.Spec.phi (qc (ix4 (0 : Fin 1) (0 : Fin 1) r j)) := by
  unfold rowCol
  refine (Cert.KLayout.cast_a_a1_apply _ _ r u).trans ?_
  refine (Cert.KLayout.rowsum_apply _ _ _ _ r).trans ?_
  exact Finset.sum_congr rfl fun j _ => pay3_apply qc r j

/-- One block of the result at [·, ·, r, d]: rowsum(φ(Q))[r] · (ks[r] · V[r, d]) · 1 / (rowsum(φ(Q))[r] · cs[r] + ε),
    ks the stored row sums of φ(K) as a column and cs the stored column sums of φ(K) as a row. -/
theorem pay33_apply (qc : Vec Ideal S1x1x128x1024 .f32) (vc : Vec Ideal S1x1x128x64 .f32) (ks : Vec Ideal S128x1 .f32)
    (cs : Vec Ideal S1x128 .f32) (u u' : Fin 1) (r : Fin 128) (d : Fin 64) :
    k0_pay33 qc vc ks cs (ix4 u u' r d)
      = (∑ j : Fin 1024, Cert.Spec.phi (qc (ix4 (0 : Fin 1) (0 : Fin 1) r j)))
          * (ks (ix2 r (0 : Fin 1)) * vc (ix4 (0 : Fin 1) (0 : Fin 1) r d))
        * Ideal.div 1 ((∑ j : Fin 1024, Cert.Spec.phi (qc (ix4 (0 : Fin 1) (0 : Fin 1) r j))) * cs (ix2 (0 : Fin 1) r)
            + Cert.Spec.eps) := by
  show shapeCast S1x1x128x64
      (mulf
        (mulf (broadcastTo S128x64 (rowCol qc) broadcasts_S128x1_S128x64)
          (mulf (broadcastTo S128x64 ks broadcasts_S128x1_S128x64)
            (shapeCast S128x64 vc shapeCasts_S1x1x128x64_S128x64)))
        (broadcastTo S128x64
          (divf (broadcast S128x1 (Ideal.ofBits .f32 0x3F800000#32))
            (addf (mulf (rowCol qc) (transpose S128x1 [1, 0] cs transposes_S1x128_p1_0_S128x1))
              (broadcast S128x1 (Ideal.ofBits .f32 0x358637BD#32))))
          broadcasts_S128x1_S128x64))
      shapeCasts_S128x64_S1x1x128x64 (ix4 u u' r d) = _
  rw [Cert.KLayout.cast_ab_11ab_apply, mulf_apply, mulf_apply, mulf_apply,
    Cert.KLayout.bcast_a1_ab_apply, Cert.KLayout.bcast_a1_ab_apply, Cert.KLayout.bcast_a1_ab_apply,
    divf_apply, addf_apply, mulf_apply, broadcast_apply, broadcast_apply,
    transpose_ix2_apply, Cert.KLayout.cast_11ab_ab_apply, rowCol_apply, Cert.Spec.ofBits_one_f32]
  rfl

end Cert.KernelIdeal.KVal

end
-- ==== Proof.KCol.lean ====
/-
  The scratch column read back: after the first pass it holds, at row l, the sum over j of φ(K[l, j]) — each of the
  eight stores writes the 128 row sums of its chunk, and the eight chunks tile the column.
-/
import proofs.«133528_j36498632082002_2_alg».proof.Proof.KLoads
import proofs.«133528_j36498632082002_2_alg».proof.Proof.KPayApply
import proofs.«133528_j36498632082002_2_alg».proof.Proof.Spec

set_option maxRecDepth 16384

noncomputable section

namespace Cert.KernelIdeal.KV

open Cert.KernelIdeal Cert.KernelIdeal.Gen Cert.KernelIdeal.KVal Idealize.ShloMosaic Idealize.ShloMosaic.TcCoe Idealize.ShloMosaic.ValueIdx

/-- The column of row sums of φ of a [1, 1, 1024, 1024] block. -/
def rowSums (x1 : Vec Ideal S1x1x1024x1024 .f32) : S1024x1.Idx → Elt Ideal .f32 :=
  fun y => ∑ j : Fin 1024, Cert.Spec.phi (x1 (ix4 (0 : Fin 1) (0 : Fin 1) (y 0) j))

variable (c : Dev nD) (arg3 : Memref sig .tc .vmem S1x1x1024x1024 .f32) (harg3 : arg3.IsWhole) (x1 : Vec Ideal S1x1x1024x1024 .f32)

/-- Chunk a's store holds the row sums of its own 128 rows. -/
theorem colPiece_apply (a : ℕ) (ha : a < 8) (x : S128x1.Idx) :
    (colPiece arg3 harg3 x1 a ha).2 x = rowSums x1 ((colPiece arg3 harg3 x1 a ha).1.emb x) := by
  obtain ⟨r, u, rfl⟩ : ∃ (r : Fin 128) (u : Fin 1), x = ix2 r u := ⟨x 0, x 1, eq_ix2 x⟩
  show k0_pay4 (ld1024 arg3 harg3 x1 a ha) (ix2 r u) = _
  rw [pay4_apply]
  unfold rowSums
  refine Finset.sum_congr rfl fun j _ => congrArg Cert.Spec.phi ?_
  rw [ld1024_apply]
  refine congrArg x1 (congrArg (fun l => ix4 (0 : Fin 1) (0 : Fin 1) l j) (Fin.ext ?_))
  show 128 * a + r.val = 128 * a + 1 * r.val
  omega

/-- So the column read back after the eight stores is the column of row sums. -/
theorem col_canon_apply (y : S1024x1.Idx) :
    View.canon (kernelRun0_A.sl.HS0_8 (F := Ideal) c arg3 harg3 x1) y = rowSums x1 y := by
  refine View.canon_apply_of_pieces (rowSums x1) _ ?_ y (col_cover c arg3 harg3 x1 y)
  intro p hp x
  rw [col_pieces] at hp
  rcases List.mem_cons.mp hp with rfl | hp
  · exact colPiece_apply arg3 harg3 x1 7 _ x
  rcases List.mem_cons.mp hp with rfl | hp
  · exact colPiece_apply arg3 harg3 x1 6 _ x
  rcases List.mem_cons.mp hp with rfl | hp
  · exact colPiece_apply arg3 harg3 x1 5 _ x
  rcases List.mem_cons.mp hp with rfl | hp
  · exact colPiece_apply arg3 harg3 x1 4 _ x
  rcases List.mem_cons.mp hp with rfl | hp
  · exact colPiece_apply arg3 harg3 x1 3 _ x
  rcases List.mem_cons.mp hp with rfl | hp
  · exact colPiece_apply arg3 harg3 x1 2 _ x
  rcases List.mem_cons.mp hp with rfl | hp
  · exact colPiece_apply arg3 harg3 x1 1 _ x
  rcases List.mem_cons.mp hp with rfl | hp
  · exact colPiece_apply arg3 harg3 x1 0 _ x
  · exact absurd hp List.not_mem_nil

end Cert.KernelIdeal.KV

end
-- ==== Proof.ChunkSum.lean ====
import Mathlib

/-!
A sum over `Fin 1024` is the sum over its 8 consecutive blocks of 128 terms.
-/

namespace Cert.ChunkSum

/-- The pair (block, offset) of an index below 1024, as an equivalence. -/
def blockEquiv : Fin 8 × Fin 128 ≃ Fin 1024 where
  toFun p := ⟨128 * p.1.val + p.2.val, by have := p.1.isLt; have := p.2.isLt; omega⟩
  invFun j := (⟨j.val / 128, by have := j.isLt; omega⟩, ⟨j.val % 128, by omega⟩)
  left_inv p := by
    rcases p with ⟨⟨a, ha⟩, ⟨i, hi⟩⟩
    ext <;> simp <;> omega
  right_inv j := by
    rcases j with ⟨j, hj⟩
    ext; simp; omega

theorem sum_chunks {M : Type*} [AddCommMonoid M] (f : Fin 1024 → M) :
    ∑ j : Fin 1024, f j = ∑ a : Fin 8, ∑ i : Fin 128, f ⟨128 * a.val + i.val, by omega⟩ := by
  rw [← Fintype.sum_prod_type' (f := fun (a : Fin 8) (i : Fin 128) => f ⟨128 * a.val + i.val, by omega⟩)]
  exact (Equiv.sum_comp blockEquiv f).symm

end Cert.ChunkSum
-- ==== Proof.KRow.lean ====
/-
  The scratch row as one sum.

  The [1, 1024] scratch row starts at zero and receives, chunk after chunk, the column sums of φ over the chunk's 128
  rows of the staged block. At lane k the eight additions are the eight blocks of 128 terms of the one sum
  ∑ l : Fin 1024, φ(x[0, 0, l, k]): a sum over 1024 consecutive rows is the sum over its eight blocks of 128.
-/
import proofs.«133528_j36498632082002_2_alg».proof.Proof.KLoads
import proofs.«133528_j36498632082002_2_alg».proof.Proof.KPayApply
import proofs.«133528_j36498632082002_2_alg».proof.Proof.ChunkSum
import proofs.«133528_j36498632082002_2_alg».proof.Proof.Spec

noncomputable section

namespace Cert.KernelIdeal.KV

open Cert.KernelIdeal Cert.KernelIdeal.Gen Idealize.ShloMosaic Idealize.ShloMosaic.ValueIdx Cert.KernelIdeal.KVal

/-- One addition at lane k: the previous value plus the column sum of φ over chunk a's rows, read off the staged
    block. -/
theorem step_apply (arg3 : Memref sig .tc .vmem S1x1x1024x1024 .f32) (harg3 : arg3.IsWhole)
    (x1 : Vec Ideal S1x1x1024x1024 .f32) (a : ℕ) (ha : a < 8) (prev : Vec Ideal S1x1024 .f32) (u : Fin 1) (k : Fin 1024) :
    k0_pay5 (ld1024 arg3 harg3 x1 a ha) prev (ix2 u k)
      = prev (ix2 u k)
        + ∑ r : Fin 128, Cert.Spec.phi (x1 (ix4 (0 : Fin 1) (0 : Fin 1) (⟨128 * a + r.val, by omega⟩ : Fin 1024) k)) := by
  rw [pay5_apply]
  refine congrArg (prev (ix2 u k) + ·) ?_
  exact Finset.sum_congr rfl fun r _ => congrArg Cert.Spec.phi (ld1024_apply arg3 harg3 x1 a ha 0 0 r k)

/-- The scratch row after all eight chunks, at lane k: the column sum of φ over all 1024 rows of the staged block. -/
theorem acc8_apply (arg3 : Memref sig .tc .vmem S1x1x1024x1024 .f32) (harg3 : arg3.IsWhole)
    (x1 : Vec Ideal S1x1x1024x1024 .f32) (u : Fin 1) (k : Fin 1024) :
    acc8 arg3 harg3 x1 (ix2 u k) = ∑ l : Fin 1024, Cert.Spec.phi (x1 (ix4 (0 : Fin 1) (0 : Fin 1) l k)) := by
  unfold acc8
  rw [step_apply]
  unfold acc7
  rw [step_apply]
  unfold acc6
  rw [step_apply]
  unfold acc5
  rw [step_apply]
  unfold acc4
  rw [step_apply]
  unfold acc3
  rw [step_apply]
  unfold acc2
  rw [step_apply]
  unfold acc1
  rw [step_apply]
  unfold acc0
  rw [pay2_apply, zero_add,
    Cert.ChunkSum.sum_chunks (fun l : Fin 1024 => Cert.Spec.phi (x1 (ix4 (0 : Fin 1) (0 : Fin 1) l k))),
    Fin.sum_univ_eight]
  rfl

end Cert.KernelIdeal.KV

end
-- ==== Proof.KBody.lean ====
/-
  What the kernel body leaves in the result's staging buffer, as one function of the staged blocks of Q, K and V.

  The second pass stores the result block in eight chunks of 128 rows. Chunk a's store is, row by row,
  rowsum(φ(Q))·(kcol·V)·(1 / (rowsum(φ(Q))·krow + ε)), where kcol is the scratch column read back over the chunk's
  rows — the row sums of φ(K) there — and krow is the scratch row read back over lanes 128a … 128a + 127 and
  transposed — the column sums of φ(K), summed over ALL 1024 rows since the first pass is complete by then. The
  eight chunks tile the block, so the block holds the block expression at every row.
-/
import proofs.«133528_j36498632082002_2_alg».proof.Proof.KCol
import proofs.«133528_j36498632082002_2_alg».proof.Proof.KRow
import proofs.«133528_j36498632082002_2_alg».proof.Proof.Spec

set_option maxRecDepth 16384

noncomputable section

namespace Cert.KernelIdeal.KV

open Cert.KernelIdeal Cert.KernelIdeal.Gen Cert.KernelIdeal.KVal Idealize.ShloMosaic Idealize.ShloMosaic.TcCoe Idealize.ShloMosaic.ValueIdx
section
variable (c : Dev nD) (i : grid0.Coords)
  (arg2 : Memref sig .tc .vmem S1x1x1024x1024 .f32) (harg2 : arg2.IsWhole)
  (arg3 : Memref sig .tc .vmem S1x1x1024x1024 .f32) (harg3 : arg3.IsWhole)
  (arg4 : Memref sig .tc .vmem S1x1x1024x64 .f32) (harg4 : arg4.IsWhole)
  (arg5 : Memref sig .tc .vmem S1x1x1024x64 .f32) (harg5 : arg5.IsWhole)
  (arg6 : Memref sig .tc .vmem S1024x1 .f32) (harg6 : arg6.IsWhole)
  (arg7 : Memref sig .tc .vmem S1x1024 .f32) (harg7 : arg7.IsWhole)
  (x0 x1 : Vec Ideal S1x1x1024x1024 .f32) (x2 : Vec Ideal S1x1x1024x64 .f32)

/-- The second pass's store of chunk a: the first chunk's payload function of this chunk's loads of Q and V and of
    the two scratch buffers read back over this chunk's rows and lanes. -/
def outPiece (a : ℕ) (ha : a < 8) : View.Piece (Elt Ideal) S1x1x1024x64 .f32 :=
  ⟨Rect.unit (s := S1x1x1024x64) ![0, 0, 128 * a, 0] S1x1x128x64.size (inb4 64 a ha),
    k0_pay33 (ld1024 arg2 harg2 x0 a ha) (ld64 arg4 harg4 x2 a ha)
      (arg6.view.readCov (kernelRun0_A.sl.HS0_8 (F := Ideal) c arg3 harg3 x1)
        (Rect.unit (s := S1024x1) ![128 * a, 0] S128x1.size (inbCol a ha)).toLoadRect)
      (arg7.view.readCov (kernelRun0_A.sl.HS1_9 (F := Ideal) c arg3 harg3 arg7 x1)
        (Rect.unit (s := S1x1024) ![0, 128 * a] S1x128.size (inbRow a ha)).toLoadRect)⟩

/-- The result block's stores, last first, in that form. -/
theorem out_pieces :
    (kernelRun0_A (F := Ideal) c i arg2 harg2 arg3 harg3 arg4 harg4 arg5 harg5 arg6 harg6 arg7 harg7 x0 x1 x2).1
      = [outPiece c arg2 harg2 arg3 harg3 arg4 harg4 arg6 arg7 x0 x1 x2 7 (by omega),
         outPiece c arg2 harg2 arg3 harg3 arg4 harg4 arg6 arg7 x0 x1 x2 6 (by omega),
         outPiece c arg2 harg2 arg3 harg3 arg4 harg4 arg6 arg7 x0 x1 x2 5 (by omega),
         outPiece c arg2 harg2 arg3 harg3 arg4 harg4 arg6 arg7 x0 x1 x2 4 (by omega),
         outPiece c arg2 harg2 arg3 harg3 arg4 harg4 arg6 arg7 x0 x1 x2 3 (by omega),
         outPiece c arg2 harg2 arg3 harg3 arg4 harg4 arg6 arg7 x0 x1 x2 2 (by omega),
         outPiece c arg2 harg2 arg3 harg3 arg4 harg4 arg6 arg7 x0 x1 x2 1 (by omega),
         outPiece c arg2 harg2 arg3 harg3 arg4 harg4 arg6 arg7 x0 x1 x2 0 (by omega)] := rfl

/-- The scratch column read back over chunk a's rows: the row sums of φ(K) at those rows. -/
theorem kcol_apply (a : ℕ) (ha : a < 8) (r : Fin 128) (u : Fin 1) :
    arg6.view.readCov (kernelRun0_A.sl.HS0_8 (F := Ideal) c arg3 harg3 x1)
        (Rect.unit (s := S1024x1) ![128 * a, 0] S128x1.size (inbCol a ha)).toLoadRect (ix2 r u)
      = ∑ j : Fin 1024, Cert.Spec.phi (x1 (ix4 (0 : Fin 1) (0 : Fin 1) (⟨128 * a + r.val, by omega⟩ : Fin 1024) j)) := by
  rw [View.readCov_eq_canon']
  show View.canon (kernelRun0_A.sl.HS0_8 (F := Ideal) c arg3 harg3 x1)
      ((Rect.unit (s := S1024x1) ![128 * a, 0] S128x1.size (inbCol a ha)).idx (ix2 r u)) = _
  rw [col_canon_apply]
  unfold rowSums
  refine Finset.sum_congr rfl fun j _ => congrArg Cert.Spec.phi ?_
  refine congrArg x1 (congrArg (fun l => ix4 (0 : Fin 1) (0 : Fin 1) l j) (Fin.ext ?_))
  show 128 * a + 1 * r.val = 128 * a + r.val
  omega

/-- The scratch row read back over lanes 128a … 128a + 127: the column sums of φ(K) over all 1024 rows, at
    those columns. -/
theorem krow_apply (a : ℕ) (ha : a < 8) (u : Fin 1) (r : Fin 128) :
    arg7.view.readCov (kernelRun0_A.sl.HS1_9 (F := Ideal) c arg3 harg3 arg7 x1)
        (Rect.unit (s := S1x1024) ![0, 128 * a] S1x128.size (inbRow a ha)).toLoadRect (ix2 u r)
      = ∑ l : Fin 1024, Cert.Spec.phi (x1 (ix4 (0 : Fin 1) (0 : Fin 1) l (⟨128 * a + r.val, by omega⟩ : Fin 1024))) := by
  rw [View.readCov_eq_canon', row_canon9]
  show acc8 arg3 harg3 x1 ((Rect.unit (s := S1x1024) ![0, 128 * a] S1x128.size (inbRow a ha)).idx (ix2 u r)) = _
  have e : (Rect.unit (s := S1x1024) ![0, 128 * a] S1x128.size (inbRow a ha)).idx (ix2 u r)
      = ix2 (0 : Fin 1) (⟨128 * a + r.val, by omega⟩ : Fin 1024) := by
    refine funext fun b => Fin.ext ?_
    have hu := u.isLt
    match b with
    | ⟨0, _⟩ => show 0 + 1 * u.val = 0; omega
    | ⟨1, _⟩ => show 128 * a + 1 * r.val = 128 * a + r.val; omega
  rw [e, acc8_apply]

/-- Chunk a's store holds the block expression at its own 128 rows. -/
theorem outPiece_apply (a : ℕ) (ha : a < 8) (x : S1x1x128x64.Idx) :
    (outPiece c arg2 harg2 arg3 harg3 arg4 harg4 arg6 arg7 x0 x1 x2 a ha).2 x
      = Cert.Spec.blockOut x0 x1 x2
          (((outPiece c arg2 harg2 arg3 harg3 arg4 harg4 arg6 arg7 x0 x1 x2 a ha).1.emb x) 2)
          (((outPiece c arg2 harg2 arg3 harg3 arg4 harg4 arg6 arg7 x0 x1 x2 a ha).1.emb x) 3) := by
  obtain ⟨u, u', r, d, rfl⟩ : ∃ (u u' : Fin 1) (r : Fin 128) (d : Fin 64), x = ix4 u u' r d :=
    ⟨x 0, x 1, x 2, x 3, eq_ix4 x⟩
  have e2 : ((outPiece c arg2 harg2 arg3 harg3 arg4 harg4 arg6 arg7 x0 x1 x2 a ha).1.emb (ix4 u u' r d)) 2
      = (⟨128 * a + r.val, by omega⟩ : Fin 1024) := Fin.ext (by show 128 * a + 1 * r.val = 128 * a + r.val; omega)
  have e3 : ((outPiece c arg2 harg2 arg3 harg3 arg4 harg4 arg6 arg7 x0 x1 x2 a ha).1.emb (ix4 u u' r d)) 3
      = d := Fin.ext (by show 0 + 1 * d.val = d.val; omega)
  rw [e2, e3]
  show k0_pay33 (ld1024 arg2 harg2 x0 a ha) (ld64 arg4 harg4 x2 a ha) _ _ (ix4 u u' r d) = _
  rw [pay33_apply, kcol_apply (a := a) (ha := ha), krow_apply (a := a) (ha := ha), ld64_apply (a := a) (ha := ha)]
  simp only [ld1024_apply (a := a) (ha := ha)]
  rfl

end

/-- On any staging memrefs, from blocks x0 of Q, x1 of K and x2 of V, the body leaves in the result's staging
    buffer, at [0, 0, l, d], the block expression `Cert.Spec.blockOut x0 x1 x2 l d`. -/
theorem body_value (c : Dev nD) (i : grid0.Coords)
    (arg2 : Memref sig .tc .vmem S1x1x1024x1024 .f32) (harg2 : arg2.IsWhole)
    (arg3 : Memref sig .tc .vmem S1x1x1024x1024 .f32) (harg3 : arg3.IsWhole)
    (arg4 : Memref sig .tc .vmem S1x1x1024x64 .f32) (harg4 : arg4.IsWhole)
    (arg5 : Memref sig .tc .vmem S1x1x1024x64 .f32) (harg5 : arg5.IsWhole)
    (arg6 : Memref sig .tc .vmem S1024x1 .f32) (harg6 : arg6.IsWhole)
    (arg7 : Memref sig .tc .vmem S1x1024 .f32) (harg7 : arg7.IsWhole)
    (x0 x1 : Vec Ideal S1x1x1024x1024 .f32) (x2 : Vec Ideal S1x1x1024x64 .f32) :
    out0_A_3 (F := Ideal) c i arg2 harg2 arg3 harg3 arg4 harg4 arg5 harg5 arg6 harg6 arg7 harg7 x0 x1 x2
      = fun y => Cert.Spec.blockOut x0 x1 x2 (y 2) (y 3) := by
  unfold out0_A_3
  rw [View.read_writes_eq_canon _ _ _ (cover0_A_3 c i arg2 harg2 arg3 harg3 arg4 harg4 arg5 harg5 arg6 harg6 arg7 harg7 x0 x1 x2)]
  funext y
  refine View.canon_apply_of_pieces (fun y => Cert.Spec.blockOut x0 x1 x2 (y 2) (y 3)) _ ?_ y
    (cover0_A_3 c i arg2 harg2 arg3 harg3 arg4 harg4 arg5 harg5 arg6 harg6 arg7 harg7 x0 x1 x2 y)
  intro p hp x
  rw [out_pieces] at hp
  rcases List.mem_cons.mp hp with rfl | hp
  · exact outPiece_apply c arg2 harg2 arg3 harg3 arg4 harg4 arg6 arg7 x0 x1 x2 7 _ x
  rcases List.mem_cons.mp hp with rfl | hp
  · exact outPiece_apply c arg2 harg2 arg3 harg3 arg4 harg4 arg6 arg7 x0 x1 x2 6 _ x
  rcases List.mem_cons.mp hp with rfl | hp
  · exact outPiece_apply c arg2 harg2 arg3 harg3 arg4 harg4 arg6 arg7 x0 x1 x2 5 _ x
  rcases List.mem_cons.mp hp with rfl | hp
  · exact outPiece_apply c arg2 harg2 arg3 harg3 arg4 harg4 arg6 arg7 x0 x1 x2 4 _ x
  rcases List.mem_cons.mp hp with rfl | hp
  · exact outPiece_apply c arg2 harg2 arg3 harg3 arg4 harg4 arg6 arg7 x0 x1 x2 3 _ x
  rcases List.mem_cons.mp hp with rfl | hp
  · exact outPiece_apply c arg2 harg2 arg3 harg3 arg4 harg4 arg6 arg7 x0 x1 x2 2 _ x
  rcases List.mem_cons.mp hp with rfl | hp
  · exact outPiece_apply c arg2 harg2 arg3 harg3 arg4 harg4 arg6 arg7 x0 x1 x2 1 _ x
  rcases List.mem_cons.mp hp with rfl | hp
  · exact outPiece_apply c arg2 harg2 arg3 harg3 arg4 harg4 arg6 arg7 x0 x1 x2 0 _ x
  · exact absurd hp List.not_mem_nil

end Cert.KernelIdeal.KV

end
-- ==== Proof.KFinal.lean ====
/-
  From blocks to the array: the grid has one point per (batch, head) pair, point t stages the [1, 1, 1024, ·] blocks
  of Q, K and V at [b, h] and writes the result's block back at [b, h]; the 64 blocks tile the result, and on each
  the body leaves the block expression of that pair's blocks, which is the whole-array expression there.
-/
import proofs.«133528_j36498632082002_2_alg».proof.Proof.Gen.KernelIdeal.Value
import proofs.«133528_j36498632082002_2_alg».proof.Proof.KBody

set_option maxRecDepth 16384

noncomputable section

namespace Cert.KernelIdeal.KFinal

open Cert.KernelIdeal Cert.KernelIdeal.Gen Idealize.ShloMosaic Idealize.ShloMosaic.TcCoe Idealize.SL.Sem
open Idealize.ShloMosaic.ValueIdx
open Idealize.ShloMosaic.Pipeline (Dat)

/-! ## The block expression on a pair's blocks is the whole-array expression at that pair -/

/-- If the three blocks are the arrays read at batch b and head h, the block expression at [l, d] is the
    whole-array expression at [b, h, l, d]: the two are the same sums and products, entry by entry. -/
theorem blockOut_eq_outAt (q k : FVec Ideal Cert.Spec.SQ .f32) (v : FVec Ideal Cert.Spec.SV .f32)
    (x0 x1 : FVec Ideal Cert.Spec.SQb .f32) (x2 : FVec Ideal Cert.Spec.SVb .f32) (b h : Fin 8)
    (h0 : ∀ (l j : Fin 1024), x0 (ix4 (0 : Fin 1) (0 : Fin 1) l j) = q (ix4 b h l j))
    (h1 : ∀ (l j : Fin 1024), x1 (ix4 (0 : Fin 1) (0 : Fin 1) l j) = k (ix4 b h l j))
    (h2 : ∀ (l : Fin 1024) (d : Fin 64), x2 (ix4 (0 : Fin 1) (0 : Fin 1) l d) = v (ix4 b h l d))
    (l : Fin 1024) (d : Fin 64) :
    Cert.Spec.blockOut x0 x1 x2 l d = Cert.Spec.outAt q k v b h l d := by
  unfold Cert.Spec.blockOut Cert.Spec.outAt Cert.Spec.rowSum Cert.Spec.colSum
  simp only [h0, h1, h2]

/-- The same against the whole result array at an index whose coordinates are b, h, l, d. -/
theorem blockOut_eq_G (q k : FVec Ideal Cert.Spec.SQ .f32) (v : FVec Ideal Cert.Spec.SV .f32)
    (x0 x1 : FVec Ideal Cert.Spec.SQb .f32) (x2 : FVec Ideal Cert.Spec.SVb .f32) (b h : Fin 8)
    (h0 : ∀ (l j : Fin 1024), x0 (ix4 (0 : Fin 1) (0 : Fin 1) l j) = q (ix4 b h l j))
    (h1 : ∀ (l j : Fin 1024), x1 (ix4 (0 : Fin 1) (0 : Fin 1) l j) = k (ix4 b h l j))
    (h2 : ∀ (l : Fin 1024) (d : Fin 64), x2 (ix4 (0 : Fin 1) (0 : Fin 1) l d) = v (ix4 b h l d))
    (l : Fin 1024) (d : Fin 64) (i : Cert.Spec.SV.Idx)
    (hi0 : (i 0).val = b.val) (hi1 : (i 1).val = h.val) (hi2 : (i 2).val = l.val) (hi3 : (i 3).val = d.val) :
    Cert.Spec.blockOut x0 x1 x2 l d = Cert.Spec.G q k v i := by
  have hi : i = ix4 b h l d := by
    funext a
    apply Fin.ext
    match a with
    | ⟨0, _⟩ => exact hi0
    | ⟨1, _⟩ => exact hi1
    | ⟨2, _⟩ => exact hi2
    | ⟨3, _⟩ => exact hi3
  rw [hi, Cert.Spec.G_ix4]
  exact blockOut_eq_outAt q k v x0 x1 x2 b h h0 h1 h2 l d

section Blocks

variable (m : (ℓ : Loc nD τ sig) → Buf (Elt Ideal) ℓ)

/-! ## The index maps over the grid -/

/-- The printed index maps, decided over the 64 grid points: at point t every window's block index is
    (t / 8, t % 8, 0, 0). -/
theorem idx_facts : ∀ t : Fin cfg0.N,
    (win0_0.index t (0 : Fin 4) = t.val / 8 ∧ win0_0.index t (1 : Fin 4) = t.val % 8
      ∧ win0_0.index t (2 : Fin 4) = 0 ∧ win0_0.index t (3 : Fin 4) = 0)
    ∧ (win0_1.index t (0 : Fin 4) = t.val / 8 ∧ win0_1.index t (1 : Fin 4) = t.val % 8
      ∧ win0_1.index t (2 : Fin 4) = 0 ∧ win0_1.index t (3 : Fin 4) = 0)
    ∧ (win0_2.index t (0 : Fin 4) = t.val / 8 ∧ win0_2.index t (1 : Fin 4) = t.val % 8
      ∧ win0_2.index t (2 : Fin 4) = 0 ∧ win0_2.index t (3 : Fin 4) = 0)
    ∧ (win0_3.index t (0 : Fin 4) = t.val / 8 ∧ win0_3.index t (1 : Fin 4) = t.val % 8
      ∧ win0_3.index t (2 : Fin 4) = 0 ∧ win0_3.index t (3 : Fin 4) = 0) :=
  (by decide +kernel : ∀ t : Fin grid0.N, _)

/-! ## The input blocks as the arguments read at the point's batch and head -/

/-- The block of Q at point t, at [0, 0, l, j], is Q at [t / 8, t % 8, l, j]. -/
theorem iblk0_apply (c : Dev nD) (t : Fin cfg0.N) (b h : Fin 8) (hb : b.val = t.val / 8) (hh : h.val = t.val % 8)
    (l j : Fin 1024) :
    (iblk m c 0 t : Vec Ideal S1x1x1024x1024 .f32) (ix4 (0 : Fin 1) (0 : Fin 1) l j)
      = (m ((c : Thread nD τ).loc main_arg0) : S8x8x1024x1024.Idx → EReal) (ix4 b h l j) := by
  obtain ⟨⟨e0, e1, e2, e3⟩, -, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = b.val; rw [e0, hb]; omega
  | ⟨1, _⟩ => show win0_0.index t (1 : Fin 4) * 1 + 1 * 0 = h.val; rw [e1, hh]; omega
  | ⟨2, _⟩ => show win0_0.index t (2 : Fin 4) * 1024 + 1 * l.val = l.val; rw [e2]; omega
  | ⟨3, _⟩ => show win0_0.index t (3 : Fin 4) * 1024 + 1 * j.val = j.val; rw [e3]; omega

/-- The block of K at point t, at [0, 0, l, j], is K at [t / 8, t % 8, l, j]. -/
theorem iblk1_apply (c : Dev nD) (t : Fin cfg0.N) (b h : Fin 8) (hb : b.val = t.val / 8) (hh : h.val = t.val % 8)
    (l j : Fin 1024) :
    (iblk m c 1 t : Vec Ideal S1x1x1024x1024 .f32) (ix4 (0 : Fin 1) (0 : Fin 1) l j)
      = (m ((c : Thread nD τ).loc main_arg1) : S8x8x1024x1024.Idx → EReal) (ix4 b h l j) := by
  obtain ⟨-, ⟨e0, e1, e2, e3⟩, -, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * 0 = b.val; rw [e0, hb]; omega
  | ⟨1, _⟩ => show win0_1.index t (1 : Fin 4) * 1 + 1 * 0 = h.val; rw [e1, hh]; omega
  | ⟨2, _⟩ => show win0_1.index t (2 : Fin 4) * 1024 + 1 * l.val = l.val; rw [e2]; omega
  | ⟨3, _⟩ => show win0_1.index t (3 : Fin 4) * 1024 + 1 * j.val = j.val; rw [e3]; omega

/-- The block of V at point t, at [0, 0, l, d], is V at [t / 8, t % 8, l, d]. -/
theorem iblk2_apply (c : Dev nD) (t : Fin cfg0.N) (b h : Fin 8) (hb : b.val = t.val / 8) (hh : h.val = t.val % 8)
    (l : Fin 1024) (d : Fin 64) :
    (iblk m c 2 t : Vec Ideal S1x1x1024x64 .f32) (ix4 (0 : Fin 1) (0 : Fin 1) l d)
      = (m ((c : Thread nD τ).loc main_arg2) : S8x8x1024x64.Idx → EReal) (ix4 b h l d) := by
  obtain ⟨-, -, ⟨e0, e1, e2, e3⟩, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 4) * 1 + 1 * 0 = b.val; rw [e0, hb]; omega
  | ⟨1, _⟩ => show win0_2.index t (1 : Fin 4) * 1 + 1 * 0 = h.val; rw [e1, hh]; omega
  | ⟨2, _⟩ => show win0_2.index t (2 : Fin 4) * 1024 + 1 * l.val = l.val; rw [e2]; omega
  | ⟨3, _⟩ => show win0_2.index t (3 : Fin 4) * 64 + 1 * d.val = d.val; rw [e3]; omega

/-! ## What a point writes back -/

/-- What point t writes back is block t of the whole-array expression of the three arguments. -/
theorem flushed_eq (c : Dev nD) (t : Fin cfg0.N) :
    (dats m 0 c).flushed 3 t = ((cfg0.win 3).blk t).view.read (Elt Ideal)
      (Cert.Spec.G (m ((c : Thread nD τ).loc main_arg0)) (m ((c : Thread nD τ).loc main_arg1)) (m ((c : Thread nD τ).loc main_arg2))) := by
  have hN : cfg0.N = 64 := N_0
  have ht : t.val < 64 := hN ▸ t.isLt
  obtain ⟨-, -, -, ⟨e0, e1, e2, e3⟩⟩ := idx_facts t
  rw [Value.flushed3_A, Cert.KernelIdeal.KV.body_value]
  funext y
  rw [View.read_apply]
  have hy0 : (y 0).val < 1 := (y 0).isLt
  have hy1 : (y 1).val < 1 := (y 1).isLt
  refine blockOut_eq_G (m ((c : Thread nD τ).loc main_arg0)) (m ((c : Thread nD τ).loc main_arg1)) (m ((c : Thread nD τ).loc main_arg2))
    (iblk m c 0 t) (iblk m c 1 t) (iblk m c 2 t) ⟨t.val / 8, by omega⟩ ⟨t.val % 8, by omega⟩
    (iblk0_apply m c t _ _ rfl rfl) (iblk1_apply m c t _ _ rfl rfl) (iblk2_apply m c t _ _ rfl rfl) (y 2) (y 3) _ ?_ ?_ ?_ ?_
  · show win0_3.index t (0 : Fin 4) * 1 + 1 * (y 0).val = t.val / 8; rw [e0]; omega
  · show win0_3.index t (1 : Fin 4) * 1 + 1 * (y 1).val = t.val % 8; rw [e1]; omega
  · show win0_3.index t (2 : Fin 4) * 1024 + 1 * (y 2).val = (y 2).val; rw [e2]; omega
  · show win0_3.index t (3 : Fin 4) * 64 + 1 * (y 3).val = (y 3).val; rw [e3]; omega

/-! ## The blocks tile the result -/

/-- An index of the result is in point t's block iff each coordinate is in the block's range on its axis. -/
theorem mem_blk (t : Fin cfg0.N) (i : S8x8x1024x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0).slice (win0_3.rect t)).set ↔ _
  rw [View.set_slice_whole, Rect.mem_set_unit]
  exact Iff.rfl

/-- Every index [b, h, l, d] of the result is in the block of point 8 b + h. -/
theorem cover (i : S8x8x1024x64.Idx) :
    ∃ t : Fin cfg0.N, (cfg0.win 3).flush t = true ∧ i ∈ ((cfg0.win 3).blk t).view.set := by
  have hN : cfg0.N = 64 := N_0
  have h0 : (i 0).val < 8 := (i 0).isLt
  have h1 : (i 1).val < 8 := (i 1).isLt
  have h2 : (i 2).val < 1024 := (i 2).isLt
  have h3 : (i 3).val < 64 := (i 3).isLt
  obtain ⟨t, ht⟩ : ∃ t : Fin cfg0.N, t.val = 8 * (i 0).val + (i 1).val := ⟨⟨8 * (i 0).val + (i 1).val, by rw [hN]; omega⟩, rfl⟩
  obtain ⟨-, -, -, ⟨e0, e1, e2, e3⟩⟩ := idx_facts t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; rw [e0]; omega
  | ⟨1, _⟩ => show win0_3.index t (1 : Fin 4) * 1 ≤ (i 1).val ∧ (i 1).val < win0_3.index t (1 : Fin 4) * 1 + 1; rw [e1]; omega
  | ⟨2, _⟩ => show win0_3.index t (2 : Fin 4) * 1024 ≤ (i 2).val ∧ (i 2).val < win0_3.index t (2 : Fin 4) * 1024 + 1024; rw [e2]; omega
  | ⟨3, _⟩ => show win0_3.index t (3 : Fin 4) * 64 ≤ (i 3).val ∧ (i 3).val < win0_3.index t (3 : Fin 4) * 64 + 64; rw [e3]; omega

/-- So the result array ends holding the whole-array expression of the three arguments. -/
theorem final (c : Dev nD) :
    (dats m 0 c).arrAt 3 cfg0.N
      = Cert.Spec.G (m ((c : Thread nD τ).loc main_arg0)) (m ((c : Thread nD τ).loc main_arg1)) (m ((c : Thread nD τ).loc main_arg2)) :=
  (dats m 0 c).arrAt_eq_of_cover 3
    (Cert.Spec.G (m ((c : Thread nD τ).loc main_arg0)) (m ((c : Thread nD τ).loc main_arg1)) (m ((c : Thread nD τ).loc main_arg2)))
    (fun t _ => flushed_eq m c t) cover

end Blocks

/-! ## The run -/

/-- The idealized kernel's run: every weakly fair execution terminates with the result array at the whole-array
    expression `Cert.Spec.G` of the three argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KFinal

end
-- ==== Proof.RefTerm.lean ====
/-
  The reference program's result as ONE pure term of its three argument arrays: its host operations composed in
  program order, the outlined elu (a select between x and 1 · expm1 of a second select) spelt at both of its calls.
-/
import proofs.«133528_j36498632082002_2_alg».proof.ReferenceIdeal
import Idealize.ShloMosaic.PureOps.Ideal

noncomputable section

namespace Cert.ReferenceIdeal.RefTerm

open Idealize.ShloMosaic Cert.ReferenceIdeal
open Facts₀ Facts

variable [Facts]

/-- The scalar constant of word `w` spread over the shape of Q. -/
def splatQ (w : BitVec 32) : FVec Ideal S8x8x1024x1024 .f32 :=
  broadcastInDim S8x8x1024x1024 ![] bcast_S_S8x8x1024x1024 (constant (F := Ideal) S_ .f32 w)

/-- The scalar constant of word `w` spread over a [8, 8, 1024] array. -/
def splat3 (w : BitVec 32) : FVec Ideal S8x8x1024 .f32 :=
  broadcastInDim S8x8x1024 ![] bcast_S_S8x8x1024 (constant (F := Ideal) S_ .f32 w)

/-- jax.nn.elu as the program spells it: where x > 0 take x, elsewhere 1 · expm1 (where x > 0 take 0, elsewhere x). -/
def elu (x : FVec Ideal S8x8x1024x1024 .f32) : FVec Ideal S8x8x1024x1024 .f32 :=
  select (cmpf .ogt x (splatQ 0x00000000#32)) x
    (mulf (splatQ 0x3F800000#32)
      (Host.expm1 (select (cmpf .ogt x (splatQ 0x00000000#32))
        (broadcastInDim S8x8x1024x1024 ![] bcast_S_S8x8x1024x1024 (id (constant (F := Ideal) S_ .f32 0x00000000#32))) x)))

/-- elu(x) + 1. -/
def eluP1 (x : FVec Ideal S8x8x1024x1024 .f32) : FVec Ideal S8x8x1024x1024 .f32 :=
  addf (elu x) (splatQ 0x3F800000#32)

/-- The sum along the last axis, from the initial value 0. -/
def sumLast (y : FVec Ideal S8x8x1024x1024 .f32) : FVec Ideal S8x8x1024 .f32 :=
  Host.reduceAdd y (constant (F := Ideal) S_ .f32 0x00000000#32) reducesTo_S8x8x1024x1024_S8x8x1024_d3 h_S_

/-- The sum along the row axis (axis 2), from the initial value 0. -/
def sumRows (y : FVec Ideal S8x8x1024x1024 .f32) : FVec Ideal S8x8x1024 .f32 :=
  Host.reduceAdd y (constant (F := Ideal) S_ .f32 0x00000000#32) reducesTo_S8x8x1024x1024_S8x8x1024_d2 h_S_

/-- A [8, 8, 1024] array spread along a new last axis of extent 64 (through the keepdims shape [8, 8, 1024, 1]). -/
def spread (z : FVec Ideal S8x8x1024 .f32) : FVec Ideal S8x8x1024x64 .f32 :=
  broadcastInDim S8x8x1024x64 ![0, 1, 2, 3] bcast_S8x8x1024x1_S8x8x1024x64_0_1_2_3
    (broadcastInDim S8x8x1024x1 ![0, 1, 2] bcast_S8x8x1024_S8x8x1024x1_0_1_2 z)

/-- 1 / (rowsum(Q') · colsum(K') + ε). -/
def zed (q k : FVec Ideal S8x8x1024x1024 .f32) : FVec Ideal S8x8x1024 .f32 :=
  Host.divf (splat3 0x3F800000#32)
    (addf (mulf (sumLast (eluP1 q)) (sumRows (eluP1 k))) (splat3 0x358637BD#32))

/-- The reference's result: rowsum(Q') · (rowsum(K') · V) · Z, each factor spread along the last axis. -/
def out (q k : FVec Ideal S8x8x1024x1024 .f32) (v : FVec Ideal S8x8x1024x64 .f32) : FVec Ideal S8x8x1024x64 .f32 :=
  mulf (mulf (spread (sumLast (eluP1 q))) (mulf (spread (sumLast (eluP1 k))) v)) (spread (zed q k))

end Cert.ReferenceIdeal.RefTerm

end
-- ==== Proof.RefRun.lean ====
/-
  The reference program's run: @main as the list of its 58 host operations with the outlined
  functions' bodies written at their call sites over each call's buffers (elu twice, each with its two selects),
  that list's equality with @main, and the run: every weakly fair execution terminates with the result buffer at
  the one pure term of the three argument arrays and the arguments unchanged.
-/
import proofs.«133528_j36498632082002_2_alg».proof.ReferenceIdeal
import proofs.«133528_j36498632082002_2_alg».proof.Proof.Gen.ReferenceIdeal
import proofs.«133528_j36498632082002_2_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 58 operations in order, the calls unfolded. Each call of elu is fifteen: the zero, its spread and the
    comparison x > 0, twice; a third zero; the first select's three (the zero at its own type, its spread, the
    select between it and x); expm1 of that; the one, its spread and the product; the second select (between x and
    that product). Around the two calls @main's own twenty-eight. -/
abbrev ops : List (HloOp τ sig (Elt F)) :=
  [
    TRef.nullary main_call0.cst (constant S_ .f32 0x00000000#32),
    TRef.unary main_call0.cst main_call0.v0 (broadcastInDim S8x8x1024x1024 ![] bcast_S_S8x8x1024x1024),
    TRef.binary (.of main_arg0) main_call0.v0 main_call0.v1 (cmpf .ogt),
    TRef.nullary main_call0.cst_0 (constant S_ .f32 0x00000000#32),
    TRef.unary main_call0.cst_0 main_call0.v2 (broadcastInDim S8x8x1024x1024 ![] bcast_S_S8x8x1024x1024),
    TRef.binary (.of main_arg0) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8x8x1024x1024 ![] bcast_S_S8x8x1024x1024),
    TRef.ternary main_call0.v3 main_call0.call0.v1 (.of main_arg0) main_call0.call0.v2 select,
    TRef.unary main_call0.call0.v2 main_call0.v5 Host.expm1,
    TRef.nullary main_call0.cst_2 (constant S_ .f32 0x3F800000#32),
    TRef.unary main_call0.cst_2 main_call0.v6 (broadcastInDim S8x8x1024x1024 ![] bcast_S_S8x8x1024x1024),
    TRef.binary main_call0.v6 main_call0.v5 main_call0.v7 mulf,
    TRef.ternary main_call0.v1 (.of main_arg0) main_call0.v7 main_call0.call1.v0 select,
    nullary main_cst (constant S_ .f32 0x3F800000#32),
    unary main_cst main_v1 (broadcastInDim S8x8x1024x1024 ![] bcast_S_S8x8x1024x1024 : (⟨S_, .f32⟩ : BufTy).Contents (Elt F) → (⟨S8x8x1024x1024, .f32⟩ : BufTy).Contents (Elt F)),
    binary main_v0 main_v1 main_v2 (addf : (⟨S8x8x1024x1024, .f32⟩ : BufTy).Contents (Elt F) → (⟨S8x8x1024x1024, .f32⟩ : BufTy).Contents (Elt F) → (⟨S8x8x1024x1024, .f32⟩ : BufTy).Contents (Elt F)),
    TRef.nullary main_call1.cst (constant S_ .f32 0x00000000#32),
    TRef.unary main_call1.cst main_call1.v0 (broadcastInDim S8x8x1024x1024 ![] bcast_S_S8x8x1024x1024),
    TRef.binary (.of main_arg1) main_call1.v0 main_call1.v1 (cmpf .ogt),
    TRef.nullary main_call1.cst_0 (constant S_ .f32 0x00000000#32),
    TRef.unary main_call1.cst_0 main_call1.v2 (broadcastInDim S8x8x1024x1024 ![] bcast_S_S8x8x1024x1024),
    TRef.binary (.of main_arg1) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8x8x1024x1024 ![] bcast_S_S8x8x1024x1024),
    TRef.ternary main_call1.v3 main_call1.call0.v1 (.of main_arg1) main_call1.call0.v2 select,
    TRef.unary main_call1.call0.v2 main_call1.v5 Host.expm1,
    TRef.nullary main_call1.cst_2 (constant S_ .f32 0x3F800000#32),
    TRef.unary main_call1.cst_2 main_call1.v6 (broadcastInDim S8x8x1024x1024 ![] bcast_S_S8x8x1024x1024),
    TRef.binary main_call1.v6 main_call1.v5 main_call1.v7 mulf,
    TRef.ternary main_call1.v1 (.of main_arg1) main_call1.v7 main_call1.call1.v0 select,
    nullary main_cst_0 (constant S_ .f32 0x3F800000#32),
    unary main_cst_0 main_v4 (broadcastInDim S8x8x1024x1024 ![] bcast_S_S8x8x1024x1024 : (⟨S_, .f32⟩ : BufTy).Contents (Elt F) → (⟨S8x8x1024x1024, .f32⟩ : BufTy).Contents (Elt F)),
    binary main_v3 main_v4 main_v5 (addf : (⟨S8x8x1024x1024, .f32⟩ : BufTy).Contents (Elt F) → (⟨S8x8x1024x1024, .f32⟩ : BufTy).Contents (Elt F) → (⟨S8x8x1024x1024, .f32⟩ : BufTy).Contents (Elt F)),
    nullary main_cst_1 (constant S_ .f32 0x00000000#32),
    binary main_v5 main_cst_1 main_v6 ((fun x v => Host.reduceAdd x v reducesTo_S8x8x1024x1024_S8x8x1024_d3 h_S_) : (⟨S8x8x1024x1024, .f32⟩ : BufTy).Contents (Elt F) → (⟨S_, .f32⟩ : BufTy).Contents (Elt F) → (⟨S8x8x1024, .f32⟩ : BufTy).Contents (Elt F)),
    unary main_v6 main_v7 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    unary main_v7 main_v8 (broadcastInDim S8x8x1024x64 ![0, 1, 2, 3] bcast_S8x8x1024x1_S8x8x1024x64_0_1_2_3 : (⟨S8x8x1024x1, .f32⟩ : BufTy).Contents (Elt F) → (⟨S8x8x1024x64, .f32⟩ : BufTy).Contents (Elt F)),
    binary main_v8 main_arg2 main_v9 (mulf : (⟨S8x8x1024x64, .f32⟩ : BufTy).Contents (Elt F) → (⟨S8x8x1024x64, .f32⟩ : BufTy).Contents (Elt F) → (⟨S8x8x1024x64, .f32⟩ : BufTy).Contents (Elt F)),
    nullary main_cst_2 (constant S_ .f32 0x00000000#32),
    binary main_v2 main_cst_2 main_v10 ((fun x v => Host.reduceAdd x v reducesTo_S8x8x1024x1024_S8x8x1024_d3 h_S_) : (⟨S8x8x1024x1024, .f32⟩ : BufTy).Contents (Elt F) → (⟨S_, .f32⟩ : BufTy).Contents (Elt F) → (⟨S8x8x1024, .f32⟩ : BufTy).Contents (Elt F)),
    nullary main_cst_3 (constant S_ .f32 0x00000000#32),
    binary main_v5 main_cst_3 main_v11 ((fun x v => Host.reduceAdd x v reducesTo_S8x8x1024x1024_S8x8x1024_d2 h_S_) : (⟨S8x8x1024x1024, .f32⟩ : BufTy).Contents (Elt F) → (⟨S_, .f32⟩ : BufTy).Contents (Elt F) → (⟨S8x8x1024, .f32⟩ : BufTy).Contents (Elt F)),
    binary main_v10 main_v11 main_v12 (mulf : (⟨S8x8x1024, .f32⟩ : BufTy).Contents (Elt F) → (⟨S8x8x1024, .f32⟩ : BufTy).Contents (Elt F) → (⟨S8x8x1024, .f32⟩ : BufTy).Contents (Elt F)),
    nullary main_cst_4 (constant S_ .f32 0x358637BD#32),
    unary main_cst_4 main_v13 (broadcastInDim S8x8x1024 ![] bcast_S_S8x8x1024 : (⟨S_, .f32⟩ : BufTy).Contents (Elt F) → (⟨S8x8x1024, .f32⟩ : BufTy).Contents (Elt F)),
    binary main_v12 main_v13 main_v14 (addf : (⟨S8x8x1024, .f32⟩ : BufTy).Contents (Elt F) → (⟨S8x8x1024, .f32⟩ : BufTy).Contents (Elt F) → (⟨S8x8x1024, .f32⟩ : BufTy).Contents (Elt F)),
    nullary main_cst_5 (constant S_ .f32 0x3F800000#32),
    unary main_cst_5 main_v15 (broadcastInDim S8x8x1024 ![] bcast_S_S8x8x1024 : (⟨S_, .f32⟩ : BufTy).Contents (Elt F) → (⟨S8x8x1024, .f32⟩ : BufTy).Contents (Elt F)),
    binary main_v15 main_v14 main_v16 (Host.divf : (⟨S8x8x1024, .f32⟩ : BufTy).Contents (Elt F) → (⟨S8x8x1024, .f32⟩ : BufTy).Contents (Elt F) → (⟨S8x8x1024, .f32⟩ : BufTy).Contents (Elt F)),
    unary main_v10 main_v17 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    unary main_v17 main_v18 (broadcastInDim S8x8x1024x64 ![0, 1, 2, 3] bcast_S8x8x1024x1_S8x8x1024x64_0_1_2_3 : (⟨S8x8x1024x1, .f32⟩ : BufTy).Contents (Elt F) → (⟨S8x8x1024x64, .f32⟩ : BufTy).Contents (Elt F)),
    binary main_v18 main_v9 main_v19 (mulf : (⟨S8x8x1024x64, .f32⟩ : BufTy).Contents (Elt F) → (⟨S8x8x1024x64, .f32⟩ : BufTy).Contents (Elt F) → (⟨S8x8x1024x64, .f32⟩ : BufTy).Contents (Elt F)),
    unary main_v16 main_v20 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    unary main_v20 main_v21 (broadcastInDim S8x8x1024x64 ![0, 1, 2, 3] bcast_S8x8x1024x1_S8x8x1024x64_0_1_2_3 : (⟨S8x8x1024x1, .f32⟩ : BufTy).Contents (Elt F) → (⟨S8x8x1024x64, .f32⟩ : BufTy).Contents (Elt F)),
    binary main_v19 main_v21 main_v22 (mulf : (⟨S8x8x1024x64, .f32⟩ : BufTy).Contents (Elt F) → (⟨S8x8x1024x64, .f32⟩ : BufTy).Contents (Elt F) → (⟨S8x8x1024x64, .f32⟩ : BufTy).Contents (Elt F)) ]

-- fifty-eight binds re-associated: the rewrite under the chain recurses once per statement
set_option maxRecDepth 2048 in
/-- @main is that straight line: the functions' definitions unfolded at their calls and the records at their
    fields, both sides are one chain of steps once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., binary_bufs_sub .., unary_bufs_sub .., unary_bufs_sub .., binary_bufs_sub .., nullary_bufs_sub .., binary_bufs_sub .., nullary_bufs_sub .., binary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

/-- At the compiled mesh, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd Host.expm1 Host.divf in
set_option maxRecDepth 8192 in
set_option maxHeartbeats 400000 in
/-- The fold at the result buffer is the one pure term of the arguments, by computation: the fold unrolled, each
    operation's result read at its own buffer and passed over at every other, the typed references' casts the
    identity at these literal references. The sums, expm1 and the quotient stay folded: the equation never looks
    inside them. -/
theorem after_out_eq (V : Valuation τ sig (Elt Ideal)) :
    after (ops (F := Ideal)) V (main_v22 : DevRef τ sig)
      = Cert.ReferenceIdeal.RefTerm.out (V (main_arg0 : DevRef τ sig)) (V (main_arg1 : DevRef τ sig)) (V (main_arg2 : DevRef τ sig)) := by
  simp only [after_cons, after_nil]
  rfl

theorem after_arg0_eq (V : Valuation τ sig (Elt F)) :
    after ops V (main_arg0 : DevRef τ sig) = V (main_arg0 : DevRef τ sig) := by
  simp only [after_cons, after_nil]
  rfl

theorem after_arg1_eq (V : Valuation τ sig (Elt F)) :
    after ops V (main_arg1 : DevRef τ sig) = V (main_arg1 : DevRef τ sig) := by
  simp only [after_cons, after_nil]
  rfl

theorem after_arg2_eq (V : Valuation τ sig (Elt F)) :
    after ops V (main_arg2 : DevRef τ sig) = V (main_arg2 : DevRef τ sig) := by
  simp only [after_cons, after_nil]
  rfl

/-- On the one device, from any memory with zero counters: every weakly fair execution of @main terminates with
    the result buffer at the reference's pure term of the three arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = Cert.ReferenceIdeal.RefTerm.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c main_v22).trans (after_out_eq _), (h c main_arg0).trans (after_arg0_eq _),
      (h c main_arg1).trans (after_arg1_eq _), (h c main_arg2).trans (after_arg2_eq _)⟩)
    (run_main (F := Ideal) m ρ)

end Cert.RefSide

end
-- ==== Proof.RefValueA.lean ====
/-
  The reference's φ: the program's elu(x) + 1 read at an index.

  The program spells elu(x) as a select on x > 0 between x and 1 · expm1 (a second select on x > 0 between 0 and x), and
  adds the constant 1. At a real x this is φ(x): on the positive side x + 1; elsewhere the inner select is x, the
  product 1 · (eˣ − 1) is eˣ − 1, and (eˣ − 1) + 1 = eˣ since the exponential of a real is a real.
-/
import proofs.«133528_j36498632082002_2_alg».proof.Proof.Spec
import proofs.«133528_j36498632082002_2_alg».proof.Proof.RefTerm
import Idealize.ShloMosaic.Lib.IdealHost

noncomputable section

namespace Cert.RefSide

open Idealize.ShloMosaic Idealize.ShloMosaic.ValueIdx Cert.ReferenceIdeal Cert.ReferenceIdeal.RefTerm
open Facts₀ Facts

variable [Facts]

/-- The scalar form of the program's elu(x) + 1, at a real x, is φ(x). -/
theorem elu_scalar (r : ℝ) :
    Scalar.select (Ideal.cmp .ogt (r : EReal) 0) (r : EReal)
        (1 * (Ideal.exp (Scalar.select (Ideal.cmp .ogt (r : EReal) 0) (0 : EReal) (r : EReal)) - 1)) + 1
      = Cert.Spec.phi (r : EReal) := by
  unfold Cert.Spec.phi
  by_cases hr : (0 : EReal) < (r : EReal)
  · have hc : Ideal.cmp .ogt (r : EReal) 0 = 1#1 := by
      simp [Ideal.cmp, hr]
    rw [hc, select_one, if_pos hr]
  · have hc : Ideal.cmp .ogt (r : EReal) 0 = 0#1 := by
      simp [Ideal.cmp, hr]
    rw [hc, select_zero, select_zero, if_neg hr, one_mul, Cert.Spec.expm1_add_one]

/-- A scalar constant spread over the shape of Q reads the constant's value everywhere. -/
theorem splatQ_apply (w : BitVec 32) (i : S8x8x1024x1024.Idx) : splatQ w i = Ideal.ofBits .f32 w := rfl

/-- A scalar constant spread over a [8, 8, 1024] array reads the constant's value everywhere. -/
theorem splat3_apply (w : BitVec 32) (i : S8x8x1024.Idx) : splat3 w i = Ideal.ofBits .f32 w := rfl

/-- elu(x) + 1 at an index where x is real is φ of the element. -/
theorem eluP1_apply (x : FVec Ideal S8x8x1024x1024 .f32) (i : S8x8x1024x1024.Idx) (hx : ∃ r : ℝ, x i = (r : EReal)) :
    eluP1 x i = Cert.Spec.phi (x i) := by
  obtain ⟨r, hr⟩ := hx
  show Scalar.select (Ideal.cmp .ogt (x i) (Ideal.ofBits .f32 0x00000000#32)) (x i)
        (Ideal.ofBits .f32 0x3F800000#32
          * (Ideal.exp (Scalar.select (Ideal.cmp .ogt (x i) (Ideal.ofBits .f32 0x00000000#32))
              (Ideal.ofBits .f32 0x00000000#32) (x i)) - 1))
        + Ideal.ofBits .f32 0x3F800000#32 = _
  rw [hr, Ideal.ofBits_zero_f32, Cert.Spec.ofBits_one_f32]
  exact elu_scalar r

end Cert.RefSide

end
-- ==== Proof.RefValueB.lean ====
/-
  The reference's reductions and broadcasts read at an index.

  The host's sum along one axis from the initial value 0 is, at a result index, 0 plus the plain sum over the reduced
  coordinate; the source index over [b, h, l] with coordinate j inserted on the last axis is [b, h, l, j], on the row
  axis [b, h, j, l]. A [8, 8, 1024] array spread along a new last axis reads, at [b, h, l, d], its element at [b, h, l].
-/
import proofs.«133528_j36498632082002_2_alg».proof.Proof.RefValueA
import Idealize.ShloMosaic.Lib.Pipeline.Value

noncomputable section

namespace Cert.RefSide

open Idealize.ShloMosaic Idealize.ShloMosaic.ValueIdx Cert.ReferenceIdeal Cert.ReferenceIdeal.RefTerm
open Facts₀ Facts

variable [Facts]

/-- The shapes' reduction facts in the form that names the inserted index. -/
theorem reduces_d3 : S8x8x1024x1024.Reduces [3] S8x8x1024 := by decide
theorem reduces_d2 : S8x8x1024x1024.Reduces [2] S8x8x1024 := by decide

/-- Over [b, h, l], coordinate j inserted on the last axis: [b, h, l, j]. -/
theorem lift_d3 (b h : Fin 8) (l j : Fin 1024) : reduces_d3.lift (ix3 b h l) j = ix4 b h l j := by
  funext c
  refine Fin.ext ?_
  match c with
  | ⟨0, _⟩ => rfl
  | ⟨1, _⟩ => rfl
  | ⟨2, _⟩ => rfl
  | ⟨3, _⟩ => rfl

/-- Over [b, h, l], coordinate j inserted on the row axis: [b, h, j, l]. -/
theorem lift_d2 (b h : Fin 8) (l j : Fin 1024) : reduces_d2.lift (ix3 b h l) j = ix4 b h j l := by
  funext c
  refine Fin.ext ?_
  match c with
  | ⟨0, _⟩ => rfl
  | ⟨1, _⟩ => rfl
  | ⟨2, _⟩ => rfl
  | ⟨3, _⟩ => rfl

/-- The sum along the last axis at [b, h, l]: the plain sum of row l. -/
theorem sumLast_apply (y : FVec Ideal S8x8x1024x1024 .f32) (b h : Fin 8) (l : Fin 1024) :
    sumLast y (ix3 b h l) = ∑ j : Fin 1024, y (ix4 b h l j) := by
  show Ideal.hostReduceAdd reducesTo_S8x8x1024x1024_S8x8x1024_d3 y (Ideal.ofBits .f32 0x00000000#32) (ix3 b h l) = _
  rw [Ideal.hostReduceAdd_single _ reduces_d3, Ideal.ofBits_zero_f32, zero_add]
  exact Finset.sum_congr rfl fun j _ => congrArg y (lift_d3 b h l j)

/-- The sum along the row axis at [b, h, l]: the plain sum of column l. -/
theorem sumRows_apply (y : FVec Ideal S8x8x1024x1024 .f32) (b h : Fin 8) (l : Fin 1024) :
    sumRows y (ix3 b h l) = ∑ j : Fin 1024, y (ix4 b h j l) := by
  show Ideal.hostReduceAdd reducesTo_S8x8x1024x1024_S8x8x1024_d2 y (Ideal.ofBits .f32 0x00000000#32) (ix3 b h l) = _
  rw [Ideal.hostReduceAdd_single _ reduces_d2, Ideal.ofBits_zero_f32, zero_add]
  exact Finset.sum_congr rfl fun j _ => congrArg y (lift_d2 b h l j)

/-- A [8, 8, 1024] array spread along a new last axis reads its element at [b, h, l]. -/
theorem spread_apply (z : FVec Ideal S8x8x1024 .f32) (b h : Fin 8) (l : Fin 1024) (d : Fin 64) :
    spread z (ix4 b h l d) = z (ix3 b h l) := by
  unfold spread
  rw [broadcastInDim_apply _ _ _ (ix4 b h l d) (ix4 b h l (0 : Fin 1)) (fun a => by
        match a with
        | ⟨0, _⟩ => rfl
        | ⟨1, _⟩ => rfl
        | ⟨2, _⟩ => rfl
        | ⟨3, _⟩ => rfl),
    broadcastInDim_apply _ _ _ (ix4 b h l (0 : Fin 1)) (ix3 b h l) (fun a => by
        match a with
        | ⟨0, _⟩ => rfl
        | ⟨1, _⟩ => rfl
        | ⟨2, _⟩ => rfl)]

end Cert.RefSide

end
-- ==== Proof.RefValue.lean ====
/-
  The reference's result, index by index, is the linear-attention function G.

  At [b, h, l, d] the program's term is
    rowsum(Q')[b, h, l] · (rowsum(K')[b, h, l] · V[b, h, l, d]) · Z[b, h, l],
  Q' = elu(Q) + 1 = φ(Q) pointwise (the entries of Q and K are real), the row sums the plain sums of a row of φ, and
  Z = 1 / (rowsum(Q') · colsum(K') + ε): the three factors are each a [8, 8, 1024] array spread along the last axis.
-/
import proofs.«133528_j36498632082002_2_alg».proof.Proof.RefValueB

noncomputable section

namespace Cert.RefSide

open Idealize.ShloMosaic Idealize.ShloMosaic.ValueIdx Cert.ReferenceIdeal Cert.ReferenceIdeal.RefTerm
open Facts₀ Facts

variable [Facts]

/-- The row sums of elu(x) + 1 are the row sums of φ(x), for an array x of reals. -/
theorem sumLast_eluP1 (x : FVec Ideal S8x8x1024x1024 .f32) (hx : ∀ i, ∃ r : ℝ, x i = (r : EReal))
    (b h : Fin 8) (l : Fin 1024) : sumLast (eluP1 x) (ix3 b h l) = Cert.Spec.rowSum x b h l := by
  rw [sumLast_apply]
  exact Finset.sum_congr rfl fun j _ => eluP1_apply x _ (hx _)

/-- The column sums of elu(x) + 1 are the column sums of φ(x), for an array x of reals. -/
theorem sumRows_eluP1 (x : FVec Ideal S8x8x1024x1024 .f32) (hx : ∀ i, ∃ r : ℝ, x i = (r : EReal))
    (b h : Fin 8) (l : Fin 1024) : sumRows (eluP1 x) (ix3 b h l) = Cert.Spec.colSum x b h l := by
  rw [sumRows_apply]
  exact Finset.sum_congr rfl fun j _ => eluP1_apply x _ (hx _)

/-- The normalizer at [b, h, l]: 1 / (rowsum(Q') · colsum(K') + ε). -/
theorem zed_apply (q k : FVec Ideal S8x8x1024x1024 .f32)
    (hq : ∀ i, ∃ r : ℝ, q i = (r : EReal)) (hk : ∀ i, ∃ r : ℝ, k i = (r : EReal)) (b h : Fin 8) (l : Fin 1024) :
    zed q k (ix3 b h l)
      = Ideal.div 1 (Cert.Spec.rowSum q b h l * Cert.Spec.colSum k b h l + Cert.Spec.eps) := by
  show Ideal.div (splat3 0x3F800000#32 (ix3 b h l))
      (sumLast (eluP1 q) (ix3 b h l) * sumRows (eluP1 k) (ix3 b h l) + splat3 0x358637BD#32 (ix3 b h l)) = _
  rw [splat3_apply, splat3_apply, Cert.Spec.ofBits_one_f32, sumLast_eluP1 q hq, sumRows_eluP1 k hk]
  rfl

/-- The reference's result is G. -/
theorem out_eq
    (q k : FVec Ideal Cert.ReferenceIdeal.S8x8x1024x1024 .f32) (v : FVec Ideal Cert.ReferenceIdeal.S8x8x1024x64 .f32)
    (hq : ∀ i, ∃ r : ℝ, q i = (r : EReal)) (hk : ∀ i, ∃ r : ℝ, k i = (r : EReal)) :
    Cert.ReferenceIdeal.RefTerm.out q k v = Cert.Spec.G q k v := by
  funext i
  obtain ⟨b, h, l, d, rfl⟩ : ∃ (b h : Fin 8) (l : Fin 1024) (d : Fin 64), i = ix4 b h l d :=
    ⟨_, _, _, _, eq_ix4 i⟩
  rw [Cert.Spec.G_ix4]
  show spread (sumLast (eluP1 q)) (ix4 b h l d)
        * (spread (sumLast (eluP1 k)) (ix4 b h l d) * v (ix4 b h l d))
        * spread (zed q k) (ix4 b h l d) = _
  rw [spread_apply, spread_apply, spread_apply, sumLast_eluP1 q hq, sumLast_eluP1 k hk, zed_apply q k hq hk]
  rfl

end Cert.RefSide

end
-- ==== Proof.Finite.lean ====
import proofs.«133528_j36498632082002_2_alg».proof.Pre_finite_inputs
import Idealize.ShloMosaic.PureOps.Ideal
import Idealize.ShloMosaic.PureOps.Ideal.Laws
import Idealize.ShloMosaic.Lib.ReduceAll
import Idealize.ShloMosaic.Lib.ValueIdx

/-!
Finiteness out of the precondition. The precondition says, of each argument, that every element
`x` has `|x| < +∞` (the conjunction over all elements, and over the three arguments, is the word 1).
On the extended reals `|x| = max x (-x) < ⊤` excludes `⊤` and `⊥`, so `x` is a real number.
-/

open Idealize.ShloMosaic

namespace Cert.Finite

open Cert.Pre_finite_inputs

/-- The rank-0 shape has one index. -/
instance : Subsingleton S_.Idx := ⟨fun a b => funext fun d => d.elim0⟩

/-- The `f32` word `0x7F800000` (exponent all ones, fraction zero, sign clear) denotes `+∞`. -/
theorem ofBits_inf : Ideal.ofBits .f32 0x7F800000#32 = (⊤ : EReal) := by
  simp [Ideal.ofBits, Ideal.ieee]

/-- An extended real whose absolute value `max x (-x)` is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The element fact the precondition's comparison states, at one index of one argument. -/
theorem real_of_elem {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) :=
  real_of_abs_lt_inf (x i) h

theorem of_pre [Cert.Pre_finite_inputs.Facts]
    (q k : FVec Ideal Cert.Pre_finite_inputs.S8x8x1024x1024 .f32) (v : FVec Ideal Cert.Pre_finite_inputs.S8x8x1024x64 .f32)
    (h : Cert.Pre_finite_inputs.fn (F := Ideal) q k v = (fun _ => 1#1)) :
    (∀ i, ∃ r : ℝ, q i = (r : EReal)) ∧ (∀ i, ∃ r : ℝ, k i = (r : EReal)) := by
  have h0 := congrFun h ValueIdx.ix0
  dsimp only [Cert.Pre_finite_inputs.fn, andi] at h0
  obtain ⟨h01, _⟩ := IntOp.andi_eq_one.1 h0
  obtain ⟨hq, hk⟩ := IntOp.andi_eq_one.1 h01
  refine ⟨fun i => ?_, fun i => ?_⟩
  · exact real_of_elem q _ i (Host.reduce_andi_all _ _ _ _ _ hq i)
  · exact real_of_elem k _ i (Host.reduce_andi_all _ _ _ _ _ hk i)

end Cert.Finite
-- ==== Proof.Claims.lean ====
/-
  The certificate's five claims, assembled. The two kernel frames are the frame runs of the kernel and of its
  idealization; the reference's frame is its run with the result dropped; the idealization rewrote no operation, so
  what it preserves is the empty statement. The algebraic claim: at the ideal instance the kernel's result array ends
  at the linear-attention function G of its three argument arrays, the reference's at its own pure term of arguments
  that are the kernel's, and that term is G wherever the entries of Q and K are real numbers, which the
  precondition (every element of every argument of absolute value below +∞) gives.
-/
import proofs.«133528_j36498632082002_2_alg».proof.Defs
import proofs.«133528_j36498632082002_2_alg».proof.Proof.Gen.Kernel
import proofs.«133528_j36498632082002_2_alg».proof.Proof.Gen.Kernel.Frame
import proofs.«133528_j36498632082002_2_alg».proof.Proof.Gen.KernelIdeal
import proofs.«133528_j36498632082002_2_alg».proof.Proof.Gen.KernelIdeal.Frame
import proofs.«133528_j36498632082002_2_alg».proof.Proof.Gen.ReferenceIdeal
import proofs.«133528_j36498632082002_2_alg».proof.Proof.Gen.Pre_finite_inputs
import proofs.«133528_j36498632082002_2_alg».proof.Proof.KFinal
import proofs.«133528_j36498632082002_2_alg».proof.Proof.RefRun
import proofs.«133528_j36498632082002_2_alg».proof.Proof.RefValue
import proofs.«133528_j36498632082002_2_alg».proof.Proof.Finite

noncomputable section

open Idealize.ShloMosaic Idealize.ShloMosaic.TcCoe Idealize.SL.Sem

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefSide.run m ρ)

/-- The idealization is the program's own text read at the ideal instance: no rewrite, nothing to preserve. -/
theorem preserves : Cert.preserves_Kernel_KernelIdeal := trivial

/-- At the ideal instance the kernel's result array ends at G of its arguments and the reference's at its pure
    term of arguments that agree with the kernel's; the precondition makes the entries of Q and K real, and on real
    entries the reference's term is G. -/
theorem algebraic : Cert.algebraic_KernelIdeal_ReferenceIdeal := by
  intro m ρ m' ρ' hpre hagree
  refine ⟨_, Cert.KernelIdeal.KFinal.run m ρ, ?_⟩
  refine (θ_run Cert.ReferenceIdeal.defs _ _).mono (fun _ h c => ⟨(h c).1.trans ?_, (h c).2⟩)
    (Cert.RefSide.run m' ρ')
  rw [(hagree c).1, (hagree c).2.1, (hagree c).2.2]
  obtain ⟨hq, hk⟩ := Cert.Finite.of_pre _ _ _ (hpre c)
  exact Cert.RefSide.out_eq _ _ _ hq hk

end Cert.Proof.Claims

end
-- ==== Proof.lean ====
/-
  The linear-attention kernel against its jnp reference, over the extended reals.

  With φ(x) = elu(x) + 1 (x + 1 for x > 0, eˣ otherwise) both programs compute, for every batch b, head h, row l and
  column d,
      out[b, h, l, d] = r_Q · (r_K · V[b, h, l, d]) · (1 / (r_Q · c_K + ε)),
  where r_Q = ∑ j, φ(Q[b, h, l, j]), r_K = ∑ j, φ(K[b, h, l, j]), c_K = ∑ j, φ(K[b, h, j, l]) (a COLUMN sum of φ(K),
  indexed by the row l: the two long axes have the same extent) and ε is the f32 nearest 1e-6, the same word in
  both programs (`Cert.Spec.G`).

  The kernel runs one grid point per (b, h). Its body walks the 1024 rows in eight chunks of 128, twice: the first
  pass stores the chunk's row sums of φ(K) into a scratch column and adds the chunk's column sums of φ(K) into a
  scratch row that starts at zero; the second pass reads both back and stores 128 rows of the result. Read back, the
  scratch column is r_K and the scratch row — zero plus eight partial column sums — is c_K, a sum over 1024 rows
  split into eight runs of 128; the eight stores tile the block, and the 64 blocks tile the result.

  The reference spells φ as jax.nn.elu(x) + 1 = select(x > 0, x, 1 · expm1(select(x > 0, 0, x))) + 1. For x > 0 this
  is x + 1 on every extended real; for x ≤ 0 it is (eˣ − 1) + 1, which is eˣ when x is a real number — here the
  precondition (every input finite) is used, for Q and K. Everything else is the same operations in the same
  grouping; sums differ only in order and grouping, which addition on the extended reals does not see.

  The three frames are the generated frame certificates of the two kernels and the reference's run with its result
  dropped; the idealization rewrote nothing, so `preserves` is `True`.
-/
import proofs.«133528_j36498632082002_2_alg».proof.Defs
import proofs.«133528_j36498632082002_2_alg».proof.Proof.Gen.Kernel
import proofs.«133528_j36498632082002_2_alg».proof.Proof.Gen.Kernel.Skeleton
import proofs.«133528_j36498632082002_2_alg».proof.Proof.Gen.Kernel.Launch
import proofs.«133528_j36498632082002_2_alg».proof.Proof.Gen.Kernel.Points
import proofs.«133528_j36498632082002_2_alg».proof.Proof.Gen.Kernel.Frame
import proofs.«133528_j36498632082002_2_alg».proof.Proof.Gen.KernelIdeal
import proofs.«133528_j36498632082002_2_alg».proof.Proof.Gen.KernelIdeal.Skeleton
import proofs.«133528_j36498632082002_2_alg».proof.Proof.Gen.KernelIdeal.Launch
import proofs.«133528_j36498632082002_2_alg».proof.Proof.Gen.KernelIdeal.Points
import proofs.«133528_j36498632082002_2_alg».proof.Proof.Gen.KernelIdeal.Frame
import proofs.«133528_j36498632082002_2_alg».proof.Proof.Gen.KernelIdeal.Value
import proofs.«133528_j36498632082002_2_alg».proof.Proof.Gen.ReferenceIdeal
import proofs.«133528_j36498632082002_2_alg».proof.Proof.Gen.Pre_finite_inputs
import proofs.«133528_j36498632082002_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
